-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x64x64 : Shape := ⟨5, ![2, 32, 64, 64, 64]⟩
abbrev S_ : Shape := ⟨0, ![]⟩

class Facts : Prop where
  bcast_S_S2x32x64x64x64 : S_.BroadcastsInDim S2x32x64x64x64 (![] : Fin 0 → Fin S2x32x64x64x64.rank)
  reducesTo_S2x32x64x64x64_S_d0_1_2_3_4 : S2x32x64x64x64.ReducesTo [0, 1, 2, 3, 4] S_
  h_S_ : 0 < S_.numel

variable [Facts]

def fn {F : FTy → Type} [FloatOps F] (main_arg0 : FVec F S2x32x64x64x64 .f32) (main_arg1 : FVec F S2x32x64x64x64 .f32) : IVec S_ 1 :=
  let main_v0 : FVec F S2x32x64x64x64 .f32 := Host.absf main_arg0
  let main_cst : FVec F S_ .f32 := constant S_ .f32 0x7F800000#32
  let main_v1 : FVec F S2x32x64x64x64 .f32 := broadcastInDim S2x32x64x64x64 ![] bcast_S_S2x32x64x64x64 main_cst
  let main_v2 : IVec S2x32x64x64x64 1 := cmpf .olt main_v0 main_v1
  let main_c : IVec S_ 1 := constantI S_ 1 1#1
  let main_v3 : IVec S_ 1 := (fun x v => Host.reduce IntOp.andi x v reducesTo_S2x32x64x64x64_S_d0_1_2_3_4 h_S_) main_v2 main_c
  let main_v4 : FVec F S2x32x64x64x64 .f32 := Host.absf main_arg1
  let main_cst_0 : FVec F S_ .f32 := constant S_ .f32 0x7F800000#32
  let main_v5 : FVec F S2x32x64x64x64 .f32 := broadcastInDim S2x32x64x64x64 ![] bcast_S_S2x32x64x64x64 main_cst_0
  let main_v6 : IVec S2x32x64x64x64 1 := cmpf .olt main_v4 main_v5
  let main_c_1 : IVec S_ 1 := constantI S_ 1 1#1
  let main_v7 : IVec S_ 1 := (fun x v => Host.reduce IntOp.andi x v reducesTo_S2x32x64x64x64_S_d0_1_2_3_4 h_S_) main_v6 main_c_1
  let main_v8 : IVec S_ 1 := andi main_v3 main_v7
  main_v8
-- ==== Kernel.lean ====
abbrev S2x32x64x64x64 : Shape := ⟨5, ![2, 32, 64, 64, 64]⟩
abbrev S64x16 : Shape := ⟨2, ![64, 16]⟩
abbrev S2x32x32 : Shape := ⟨3, ![2, 32, 32]⟩
abbrev S1x32x4x64x64 : Shape := ⟨5, ![1, 32, 4, 64, 64]⟩
abbrev S1x32x32 : Shape := ⟨3, ![1, 32, 32]⟩
abbrev S32x32 : Shape := ⟨2, ![32, 32]⟩
abbrev S32x4x64x64 : Shape := ⟨4, ![32, 4, 64, 64]⟩
abbrev S32x64x64 : Shape := ⟨3, ![32, 64, 64]⟩
abbrev S2048x64 : Shape := ⟨2, ![2048, 64]⟩
abbrev S2048x16 : Shape := ⟨2, ![2048, 16]⟩
abbrev S32x64x16 : Shape := ⟨3, ![32, 64, 16]⟩
abbrev S32x16x64 : Shape := ⟨3, ![32, 16, 64]⟩
abbrev S512x64 : Shape := ⟨2, ![512, 64]⟩
abbrev S512x16 : Shape := ⟨2, ![512, 16]⟩
abbrev S32x16x16 : Shape := ⟨3, ![32, 16, 16]⟩
abbrev S16x16 : Shape := ⟨2, ![16, 16]⟩
abbrev S1x16x16 : Shape := ⟨3, ![1, 16, 16]⟩
abbrev S32x256 : Shape := ⟨2, ![32, 256]⟩
abbrev S256x32 : Shape := ⟨2, ![256, 32]⟩
abbrev S_ : Shape := ⟨0, ![]⟩

abbrev nBuf : Space → Nat
  | .hbm => 27
  | .vmem => 14
  | .smem => 0
  | _ => 0

abbrev bufTy : (tb : Table) → Fin (tcTables nBuf tb) → BufTy
  | .hbm, ⟨0, _⟩ => ⟨S2x32x64x64x64, .f32⟩
  | .hbm, ⟨1, _⟩ => ⟨S2x32x64x64x64, .f32⟩
  | .hbm, ⟨2, _⟩ => ⟨S64x16, .f32⟩
  | .hbm, ⟨3, _⟩ => ⟨S2x32x32, .f32⟩
  | .hbm, ⟨4, _⟩ => ⟨S2x32x32, .f32⟩
  | .hbm, ⟨5, _⟩ => ⟨S2x32x32, .f32⟩
  | .hbm, ⟨6, _⟩ => ⟨S_, .f32⟩
  | .hbm, ⟨7, _⟩ => ⟨S32x32, .f32⟩
  | .hbm, ⟨8, _⟩ => ⟨S_, .f32⟩
  | .hbm, ⟨9, _⟩ => ⟨S32x32, .f32⟩
  | .hbm, ⟨10, _⟩ => ⟨S_, .f32⟩
  | .hbm, ⟨11, _⟩ => ⟨S32x32, .f32⟩
  | .hbm, ⟨12, _⟩ => ⟨S32x32, .f32⟩
  | .hbm, ⟨13, _⟩ => ⟨S_, .f32⟩
  | .hbm, ⟨14, _⟩ => ⟨S_, .f32⟩
  | .hbm, ⟨15, _⟩ => ⟨S32x32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1x32x4x64x64, .f32⟩
  | .local _ .vmem, ⟨1, _⟩ => ⟨S1x32x4x64x64, .f32⟩
  | .local _ .vmem, ⟨2, _⟩ => ⟨S1x32x4x64x64, .f32⟩
  | .local _ .vmem, ⟨3, _⟩ => ⟨S1x32x4x64x64, .f32⟩
  | .local _ .vmem, ⟨4, _⟩ => ⟨S64x16, .f32⟩
  | .local _ .vmem, ⟨5, _⟩ => ⟨S1x32x32, .f32⟩
  | .local _ .vmem, ⟨6, _⟩ => ⟨S1x32x32, .f32⟩
  | .local _ .vmem, ⟨7, _⟩ => ⟨S1x32x32, .f32⟩
  | .local _ .vmem, ⟨8, _⟩ => ⟨S1x32x32, .f32⟩
  | .local _ .vmem, ⟨9, _⟩ => ⟨S1x32x32, .f32⟩
  | .local _ .vmem, ⟨10, _⟩ => ⟨S1x32x32, .f32⟩
  | .local _ .vmem, ⟨11, _⟩ => ⟨S32x32, .f32⟩
  | .local _ .vmem, ⟨12, _⟩ => ⟨S32x32, .f32⟩
  | .local _ .vmem, ⟨13, _⟩ => ⟨S32x32, .f32⟩
  | _, _ => ⟨S2x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_cst_3 : Ref sig .tc := ⟨.hbm, 13, rfl⟩
abbrev main_v5 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_5 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_cst_7 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v69 : BitVec 1 := Scalar.cmpi .eq arg1 c15_i32
  let v70 : BitVec 32 := Scalar.extui v69
  let c0_i32_38 : BitVec 32 := 0#32
  let v71 : BitVec 1 := Scalar.cmpi .ne v70 c0_i32_38
  v71

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S64x16_S64x16_0_0 : ∀ a, (![0, 0] : Fin 2 → Nat) a + S64x16.size a ≤ S64x16.size a
  h_S64x16 : 0 < S64x16.numel
  inb_S1x32x4x64x64_S1x32x4x64x64_0_0_0_0_0 : ∀ a, (![0, 0, 0, 0, 0] : Fin 5 → Nat) a + S1x32x4x64x64.size a ≤ S1x32x4x64x64.size a
  h_S1x32x4x64x64 : 0 < S1x32x4x64x64.numel
  shapeCasts_S1x32x4x64x64_S32x4x64x64 : S1x32x4x64x64.ShapeCasts S32x4x64x64
  reduces_S32x4x64x64_S32x64x64 : S32x4x64x64.Reduces [1] S32x64x64
  shapeCasts_S32x64x64_S2048x64 : S32x64x64.ShapeCasts S2048x64
  shapeCasts_S2048x16_S32x64x16 : S2048x16.ShapeCasts S32x64x16
  transposes_S32x64x16_p0_2_1_S32x16x64 : S32x64x16.Transposes [0, 2, 1] S32x16x64
  shapeCasts_S32x16x64_S512x64 : S32x16x64.ShapeCasts S512x64
  shapeCasts_S512x16_S32x16x16 : S512x16.ShapeCasts S32x16x16
  transposes_S32x16x16_p0_2_1_S32x16x16 : S32x16x16.Transposes [0, 2, 1] S32x16x16
  reduces_S32x16x16_S16x16 : S32x16x16.Reduces [0] S16x16
  shapeCasts_S16x16_S1x16x16 : S16x16.ShapeCasts S1x16x16
  broadcasts_S1x16x16_S32x16x16 : S1x16x16.Broadcasts S32x16x16
  shapeCasts_S32x16x16_S32x256 : S32x16x16.ShapeCasts S32x256
  transposes_S32x256_p1_0_S256x32 : S32x256.Transposes [1, 0] S256x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S32x32_S1x32x32 : S32x32.ShapeCasts S1x32x32
  reducesTo_S2x32x32_S32x32_d0 : S2x32x32.ReducesTo [0] S32x32
  h_S_ : 0 < S_.numel
  reducesTo_S32x32_S_d0_1 : S32x32.ReducesTo [0, 1] S_
  dot_S2048x64_S64x16_S2048x16_1_0_0_1_n_n_wf : DotDims.WF S2048x64 S64x16 S2048x16 [1] [0] [0] [1] [] []
  dot_S512x64_S64x16_S512x16_1_0_0_1_n_n_wf : DotDims.WF S512x64 S64x16 S512x16 [1] [0] [0] [1] [] []
  dot_S32x256_S256x32_S32x32_1_0_0_1_n_n_wf : DotDims.WF S32x256 S256x32 S32x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4x64x64.size a ≤ S2x32x64x64x64.size a
  hwx0_0 : ∀ i : grid0.Coords, EltTy.bits .f32 = 32 ∨ (Rect.block (s := S2x32x64x64x64) S1x32x4x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x64x64.size a ≤ S2x32x64x64x64.size a
  hwx0_1 : ∀ i : grid0.Coords, EltTy.bits .f32 = 32 ∨ (Rect.block (s := S2x32x64x64x64) S1x32x4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32.size a ≤ S2x32x32.size a
  hwx0_3 : ∀ i : grid0.Coords, EltTy.bits .f32 = 32 ∨ (Rect.block (s := S2x32x32) S1x32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x32.size a ≤ S2x32x32.size a
  hwx0_4 : ∀ i : grid0.Coords, EltTy.bits .f32 = 32 ∨ (Rect.block (s := S2x32x32) S1x32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x32.size a ≤ S2x32x32.size a
  hwx0_5 : ∀ i : grid0.Coords, EltTy.bits .f32 = 32 ∨ (Rect.block (s := S2x32x32) S1x32x32.size (cc0_transform_5 i) (hinb0_5 i)).WholeWords (EltTy.packing .f32)

variable [Facts₀]

def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf

abbrev win0_0 : Pipeline.Window sig grid0 :=
  Pipeline.Window.ofSpec (Memref.whole main_arg0) S1x32x4x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x4x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x32x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x32x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x32x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x32x64x64x64 : Shape := ⟨5, ![2, 32, 64, 64, 64]⟩
abbrev S2x32x16x4x16x4x16x4 : Shape := ⟨8, ![2, 32, 16, 4, 16, 4, 16, 4]⟩
abbrev S_ : Shape := ⟨0, ![]⟩
abbrev S2x32x16x16x16 : Shape := ⟨5, ![2, 32, 16, 16, 16]⟩
abbrev S2x32x4096 : Shape := ⟨3, ![2, 32, 4096]⟩
abbrev S2x4096x32 : Shape := ⟨3, ![2, 4096, 32]⟩
abbrev S8192x32 : Shape := ⟨2, ![8192, 32]⟩
abbrev S8192 : Shape := ⟨1, ![8192]⟩
abbrev S8192x1 : Shape := ⟨2, ![8192, 1]⟩
abbrev S32x8192 : Shape := ⟨2, ![32, 8192]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S2x32x64x64x64, .f32⟩
  | .hbm, ⟨1, _⟩ => ⟨S2x32x64x64x64, .f32⟩
  | .hbm, ⟨2, _⟩ => ⟨S2x32x16x4x16x4x16x4, .f32⟩
  | .hbm, ⟨3, _⟩ => ⟨S_, .f32⟩
  | .hbm, ⟨4, _⟩ => ⟨S2x32x16x16x16, .f32⟩
  | .hbm, ⟨5, _⟩ => ⟨S_, .f32⟩
  | .hbm, ⟨6, _⟩ => ⟨S2x32x16x16x16, .f32⟩
  | .hbm, ⟨7, _⟩ => ⟨S2x32x16x16x16, .f32⟩
  | .hbm, ⟨8, _⟩ => ⟨S2x32x4096, .f32⟩
  | .hbm, ⟨9, _⟩ => ⟨S2x4096x32, .f32⟩
  | .hbm, ⟨10, _⟩ => ⟨S8192x32, .f32⟩
  | .hbm, ⟨11, _⟩ => ⟨S2x32x16x4x16x4x16x4, .f32⟩
  | .hbm, ⟨12, _⟩ => ⟨S_, .f32⟩
  | .hbm, ⟨13, _⟩ => ⟨S2x32x16x16x16, .f32⟩
  | .hbm, ⟨14, _⟩ => ⟨S_, .f32⟩
  | .hbm, ⟨15, _⟩ => ⟨S2x32x16x16x16, .f32⟩
  | .hbm, ⟨16, _⟩ => ⟨S2x32x16x16x16, .f32⟩
  | .hbm, ⟨17, _⟩ => ⟨S2x32x4096, .f32⟩
  | .hbm, ⟨18, _⟩ => ⟨S2x4096x32, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x32, .f32⟩
  | .hbm, ⟨29, _⟩ => ⟨S8192x32, .f32⟩
  | .hbm, ⟨30, _⟩ => ⟨S32x8192, .f32⟩
  | .hbm, ⟨31, _⟩ => ⟨S8192x8192, .f32⟩
  | .hbm, ⟨32, _⟩ => ⟨S8192x32, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x32, .f32⟩
  | .hbm, ⟨41, _⟩ => ⟨S8192x32, .f32⟩
  | .hbm, ⟨42, _⟩ => ⟨S32x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S2x32x64x64x64_S2x32x16x4x16x4x16x4 : S2x32x64x64x64.ShapeCasts S2x32x16x4x16x4x16x4
  reducesTo_S2x32x16x4x16x4x16x4_S2x32x16x16x16_d3_5_7 : S2x32x16x4x16x4x16x4.ReducesTo [3, 5, 7] S2x32x16x16x16
  h_S_ : 0 < S_.numel
  bcast_S_S2x32x16x16x16 : S_.BroadcastsInDim S2x32x16x16x16 (![] : Fin 0 → Fin S2x32x16x16x16.rank)
  shapeCasts_S2x32x16x16x16_S2x32x4096 : S2x32x16x16x16.ShapeCasts S2x32x4096
  transposes_S2x32x4096_S2x4096x32_0_2_1 : S2x32x4096.Transposes [0, 2, 1] S2x4096x32
  shapeCasts_S2x4096x32_S8192x32 : S2x4096x32.ShapeCasts S8192x32
  reducesTo_S8192x32_S8192_d1 : S8192x32.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  transposes_S8192x32_S32x8192_1_0 : S8192x32.Transposes [1, 0] S32x8192
  reducesTo_S8192x8192_S_d0_1 : S8192x8192.ReducesTo [0, 1] S_
  dot_S8192x32_S32x8192_S8192x8192_1_0_0_1_n_n_wf : DotDims.WF S8192x32 S32x8192 S8192x8192 [1] [0] [0] [1] [] []

variable [Facts₀]

def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.Spec.lean ====
/-
  The common value of the two programs, over the reals.

  An input is a real array `x b c d h w` (2 × 32 × 64 × 64 × 64). Averaging over the 4 × 4 × 4 boxes of the
  last three axes gives `pooled x b c sd sh sw`; a position is `(b, sd, sh, sw)` and carries the vector of its
  32 channel values, which is divided by `max (its Euclidean norm) eps` to give `U x p c`.
  `refLoss` is the mean over all pairs of positions `(p, q)` of the squared difference of the two
  position-by-position similarity matrices `∑ c, U x p c * U x q c` and `∑ c, U y p c * U y q c`;
  `kerLoss` is the same number written through the three 32 × 32 channel-by-channel matrices
  `∑ p, U x p c * U x p c'`, `∑ p, U y p c * U y p c'`, `∑ p, U x p c * U y p c'`:
  ‖AAᵀ − BBᵀ‖² = ‖AᵀA‖² + ‖BᵀB‖² − 2 ‖AᵀB‖² (Frobenius norms).
-/
import Mathlib

noncomputable section

namespace Cert.Spec

open BigOperators

/-- A real input array, indexed `b c d h w`. -/
abbrev Arr := Fin 2 → Fin 32 → Fin 64 → Fin 64 → Fin 64 → ℝ

/-- Coordinate `4 s + k` of a long axis: entry `k` of box `s`. -/
def blk (s : Fin 16) (k : Fin 4) : Fin 64 := ⟨4 * s.val + k.val, by omega⟩

/-- The mean of `x b c` over the box `(sd, sh, sw)`. -/
def pooled (x : Arr) (b : Fin 2) (c : Fin 32) (sd sh sw : Fin 16) : ℝ :=
  (∑ kd : Fin 4, ∑ kh : Fin 4, ∑ kw : Fin 4, x b c (blk sd kd) (blk sh kh) (blk sw kw)) / 64

/-- The lower bound of a norm: the real that the single-precision pattern `0x322BCC77` denotes. -/
def eps : ℝ := 11258999 * (2 : ℝ) ^ (-50 : ℤ)

theorem eps_pos : 0 < eps := by unfold eps; positivity

/-- The sum of squares of the 32 channel values at a position. -/
def sumsq (x : Arr) (b : Fin 2) (sd sh sw : Fin 16) : ℝ :=
  ∑ c : Fin 32, pooled x b c sd sh sw * pooled x b c sd sh sw

/-- The norm at a position, bounded below by `eps`. -/
def nrm (x : Arr) (b : Fin 2) (sd sh sw : Fin 16) : ℝ := max (Real.sqrt (sumsq x b sd sh sw)) eps

theorem nrm_pos (x : Arr) (b : Fin 2) (sd sh sw : Fin 16) : 0 < nrm x b sd sh sw :=
  lt_of_lt_of_le eps_pos (le_max_right _ _)

/-- A position: batch and the three box coordinates. -/
abbrev Pos := Fin 2 × Fin 16 × Fin 16 × Fin 16

/-- The normalized channel value at a position. -/
def U (x : Arr) (p : Pos) (c : Fin 32) : ℝ :=
  pooled x p.1 c p.2.1 p.2.2.1 p.2.2.2 / nrm x p.1 p.2.1 p.2.2.1 p.2.2.2

/-- Similarity of two positions. -/
def sim (x : Arr) (p q : Pos) : ℝ := ∑ c : Fin 32, U x p c * U x q c

/-- Channel-by-channel matrix of two inputs, summed over the positions. -/
def gram (x y : Arr) (c c' : Fin 32) : ℝ := ∑ p : Pos, U x p c * U y p c'

/-- The mean squared difference of the two similarity matrices. -/
def refLoss (x y : Arr) : ℝ :=
  (∑ p : Pos, ∑ q : Pos, (sim x p q - sim y p q) * (sim x p q - sim y p q)) / 67108864

/-- The same number through the three channel-by-channel matrices. -/
def kerLoss (x y : Arr) : ℝ :=
  ((∑ c : Fin 32, ∑ c' : Fin 32, gram x x c c' * gram x x c c')
    + (∑ c : Fin 32, ∑ c' : Fin 32, gram y y c c' * gram y y c c')
    - 2 * (∑ c : Fin 32, ∑ c' : Fin 32, gram x y c c' * gram x y c c')) / 67108864

end Cert.Spec

end
-- ==== Proof.Consts.lean ====
/-
  The float constants the two programs spell, as the extended reals their patterns denote.
-/
import Idealize.ShloMosaic.PureOps.Ideal
import proofs.«123074_j61263413510182_2_alg».proof.Proof.Spec

noncomputable section

namespace Cert.Consts

open Idealize.ShloMosaic

/-- `+0.0` denotes `0`. -/
theorem ofBits_zero : Ideal.ofBits .f32 0x00000000#32 = 0 := by
  simp [Ideal.ofBits, Ideal.ieee]

/-- `4.0` denotes `4`. -/
theorem ofBits_4 : Ideal.ofBits .f32 0x40800000#32 = ((4 : ℝ) : EReal) := by
  simp [Ideal.ofBits, Ideal.ieee, -EReal.coe_mul] <;> norm_num

/-- `0.25` denotes `1/4`. -/
theorem ofBits_quarter : Ideal.ofBits .f32 0x3E800000#32 = ((1 / 4 : ℝ) : EReal) := by
  simp [Ideal.ofBits, Ideal.ieee, -EReal.coe_mul] <;> norm_num

/-- `64.0` denotes `64`. -/
theorem ofBits_64 : Ideal.ofBits .f32 0x42800000#32 = ((64 : ℝ) : EReal) := by
  simp [Ideal.ofBits, Ideal.ieee, -EReal.coe_mul] <;> norm_num

/-- `2.0` denotes `2`. -/
theorem ofBits_2 : Ideal.ofBits .f32 0x40000000#32 = ((2 : ℝ) : EReal) := by
  simp [Ideal.ofBits, Ideal.ieee, -EReal.coe_mul] <;> norm_num

/-- `2^26` denotes `67108864`. -/
theorem ofBits_2p26 : Ideal.ofBits .f32 0x4C800000#32 = ((67108864 : ℝ) : EReal) := by
  simp [Ideal.ofBits, Ideal.ieee, -EReal.coe_mul] <;> norm_num

/-- The norm's lower bound denotes `Spec.eps`. -/
theorem ofBits_eps : Ideal.ofBits .f32 0x322BCC77#32 = ((Cert.Spec.eps : ℝ) : EReal) := by
  simp [Ideal.ofBits, Ideal.ieee, -EReal.coe_mul, Cert.Spec.eps] <;> norm_num

end Cert.Consts

end
-- ==== Proof.Lift.lean ====
/-
  Finite extended-real arrays as real arrays: an array of the programs' input shape all of whose entries are
  real numbers is the coercion of the real array `toArr X`.
-/
import Idealize.ShloMosaic.Lib.ValueIdx
import Idealize.ShloMosaic.PureOps.Ideal
import proofs.«123074_j61263413510182_2_alg».proof.Proof.Spec

noncomputable section

namespace Cert.Spec

open Idealize.ShloMosaic Idealize.ShloMosaic.ValueIdx

/-- The shape of both inputs. -/
abbrev S5 : Shape := ⟨5, ![2, 32, 64, 64, 64]⟩

/-- Every entry is a real number. -/
def Finite (X : S5.Idx → EReal) : Prop := ∀ i, X i ≠ ⊥ ∧ X i ≠ ⊤

/-- The real array under a finite extended-real one. -/
def toArr (X : S5.Idx → EReal) : Arr := fun b c d h w => (X (ix5 b c d h w)).toReal

theorem coe_toArr {X : S5.Idx → EReal} (hX : Finite X) (b : Fin 2) (c : Fin 32) (d h w : Fin 64) :
    X (ix5 b c d h w) = ((toArr X b c d h w : ℝ) : EReal) :=
  (EReal.coe_toReal (hX _).2 (hX _).1).symm

theorem coe_toArr_idx {X : S5.Idx → EReal} (hX : Finite X) (i : S5.Idx) : ∃ r : ℝ, X i = ((r : ℝ) : EReal) :=
  ⟨_, (EReal.coe_toReal (hX i).2 (hX i).1).symm⟩

/-- The coercion of a finite sum of reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Spec

end
-- ==== Proof.RefPool.lean ====
/-
  The reference's pooling stage read at an index: the reshape to rank 8, the sum over the three box axes and the
  division by 64 give, at `(b, c, sd, sh, sw)`, the mean of the input over the box — `Spec.pooled`.
-/
import proofs.«123074_j61263413510182_2_alg».proof.Proof.Gen.ReferenceIdeal.Read
import proofs.«123074_j61263413510182_2_alg».proof.Proof.Consts
import proofs.«123074_j61263413510182_2_alg».proof.Proof.Lift

noncomputable section

namespace Cert.RefValue

open Cert.ReferenceIdeal Cert.ReferenceIdeal.Gen Cert.ReferenceIdeal.Read Idealize.ShloMosaic
  Idealize.ShloMosaic.ValueIdx Idealize.ShloMosaic.StableHlo Cert.Spec

/-- A row-major position at rank 8 as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 (b : Fin 2) (c : Fin 32) (sd : Fin 16) (kd : Fin 4) (sh : Fin 16) (kh : Fin 4) (sw : Fin 16) (kw : Fin 4) :
    S2x32x16x4x16x4x16x4.Idx :=
  fun a => match a with
    | ⟨0, _⟩ => b | ⟨1, _⟩ => c | ⟨2, _⟩ => sd | ⟨3, _⟩ => kd | ⟨4, _⟩ => sh | ⟨5, _⟩ => kh | ⟨6, _⟩ => sw | ⟨7, _⟩ => kw

theorem eq_ix8 (j : S2x32x16x4x16x4x16x4.Idx) : j = ix8 (j 0) (j 1) (j 2) (j 3) (j 4) (j 5) (j 6) (j 7) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- The reshape to rank 8 read at an index: entry `(kd, kh, kw)` of box `(sd, sh, sw)`. -/
theorem reshape8_apply (X : S5.Idx → EReal) (b : Fin 2) (c : Fin 32) (sd : Fin 16) (kd : Fin 4) (sh : Fin 16) (kh : Fin 4)
    (sw : Fin 16) (kw : Fin 4) :
    shapeCast S2x32x16x4x16x4x16x4 X shapeCasts_S2x32x64x64x64_S2x32x16x4x16x4x16x4 (ix8 b c sd kd sh kh sw kw)
      = X (ix5 b c (blk sd kd) (blk sh kh) (blk sw kw)) := by
  refine shapeCast_apply X shapeCasts_S2x32x64x64x64_S2x32x16x4x16x4x16x4 (ix8 b c sd kd sh kh sw kw)
    (ix5 b c (blk sd kd) (blk sh kh) (blk sw kw)) ?_
  rw [Shape.rowMajor_val_five, rowMajor_val_eight]
  have hb := b.isLt; have hc := c.isLt; have h1 := sd.isLt; have h2 := kd.isLt; have h3 := sh.isLt; have h4 := kh.isLt
  have h5 := sw.isLt; have h6 := kw.isLt
  show ((((b.val * 32 + c.val) * 64 + (4 * sd.val + kd.val)) * 64 + (4 * sh.val + kh.val)) * 64 + (4 * sw.val + kw.val))
    = (((((((b.val * 32 + c.val) * 16 + sd.val) * 4 + kd.val) * 16 + sh.val) * 4 + kh.val) * 16 + sw.val) * 4 + kw.val)
  omega

/-- Dropping the three box axes of a rank-8 index keeps coordinates 0, 1, 2, 4, 6. -/
theorem drop357 (i : S2x32x16x4x16x4x16x4.Idx) :
    Shape.ReducesTo.drop reducesTo_S2x32x16x4x16x4x16x4_S2x32x16x16x16_d3_5_7 i
      = (ix5 (i 0) (i 1) (i 2) (i 4) (i 6) : S2x32x16x16x16.Idx) := by
  funext a
  apply Fin.ext
  match a with
  | ⟨0, _⟩ => exact Shape.ReducesTo.drop_apply_val_of_eq _ i ⟨0, by decide⟩ ⟨0, by decide⟩
  | ⟨1, _⟩ => exact Shape.ReducesTo.drop_apply_val_of_eq _ i ⟨1, by decide⟩ ⟨1, by decide⟩
  | ⟨2, _⟩ => exact Shape.ReducesTo.drop_apply_val_of_eq _ i ⟨2, by decide⟩ ⟨2, by decide⟩
  | ⟨3, _⟩ => exact Shape.ReducesTo.drop_apply_val_of_eq _ i ⟨3, by decide⟩ ⟨4, by decide⟩
  | ⟨4, _⟩ => exact Shape.ReducesTo.drop_apply_val_of_eq _ i ⟨4, by decide⟩ ⟨6, by decide⟩

/-- The sum over the three box axes read at an index: the initial value plus the sum over the 64 entries of the box. -/
theorem reduce357_apply (x : S2x32x16x4x16x4x16x4.Idx → EReal) (init : EReal) (b : Fin 2) (c : Fin 32) (sd sh sw : Fin 16) :
    Ideal.hostReduceAdd reducesTo_S2x32x16x4x16x4x16x4_S2x32x16x16x16_d3_5_7 x init (ix5 b c sd sh sw)
      = init + ∑ kd : Fin 4, ∑ kh : Fin 4, ∑ kw : Fin 4, x (ix8 b c sd kd sh kh sw kw) := by
  unfold Ideal.hostReduceAdd
  have key : ∑ k : Fin 4 × Fin 4 × Fin 4, x (ix8 b c sd k.1 sh k.2.1 sw k.2.2)
      = ∑ i ∈ Finset.univ.filter (fun i => Shape.ReducesTo.drop
          reducesTo_S2x32x16x4x16x4x16x4_S2x32x16x16x16_d3_5_7 i = ix5 b c sd sh sw), x i := by
    refine Finset.sum_nbij' (fun k => ix8 b c sd k.1 sh k.2.1 sw k.2.2) (fun i => (i 3, i 5, i 7)) ?_ ?_ ?_ ?_ ?_
    · intro k _
      exact Finset.mem_filter.2 ⟨Finset.mem_univ _, drop357 _⟩
    · intro i _
      exact Finset.mem_univ _
    · intro k _
      rfl
    · intro i hi
      have hd := (Finset.mem_filter.1 hi).2
      rw [drop357] at hd
      have e0 : i 0 = b := congrFun hd (0 : Fin 5)
      have e1 : i 1 = c := congrFun hd (1 : Fin 5)
      have e2 : i 2 = sd := congrFun hd (2 : Fin 5)
      have e4 : i 4 = sh := congrFun hd (3 : Fin 5)
      have e6 : i 6 = sw := congrFun hd (4 : Fin 5)
      funext a
      match a with
      | ⟨0, _⟩ => exact e0.symm
      | ⟨1, _⟩ => exact e1.symm
      | ⟨2, _⟩ => exact e2.symm
      | ⟨3, _⟩ => rfl
      | ⟨4, _⟩ => exact e4.symm
      | ⟨5, _⟩ => rfl
      | ⟨6, _⟩ => exact e6.symm
      | ⟨7, _⟩ => rfl
    · intro k _
      rfl
  rw [← key, Fintype.sum_prod_type]
  refine congrArg (init + ·) (Finset.sum_congr rfl fun kd _ => ?_)
  rw [Fintype.sum_prod_type]

/-- The reshape, the box sum from `0` and the division by 64 of a finite array, at an index: the box mean. -/
theorem pool_apply (X : S5.Idx → EReal) (hX : Finite X) (b : Fin 2) (c : Fin 32) (sd sh sw : Fin 16) :
    Ideal.div (Ideal.hostReduceAdd reducesTo_S2x32x16x4x16x4x16x4_S2x32x16x16x16_d3_5_7
        (shapeCast S2x32x16x4x16x4x16x4 X shapeCasts_S2x32x64x64x64_S2x32x16x4x16x4x16x4) 0 (ix5 b c sd sh sw))
        ((64 : ℝ) : EReal)
      = ((pooled (toArr X) b c sd sh sw : ℝ) : EReal) := by
  rw [reduce357_apply, zero_add, Ideal.div_coe (by norm_num)]
  simp only [reshape8_apply, coe_toArr hX, ← coe_sum, ← EReal.coe_mul]
  unfold pooled
  rw [mul_one_div]

/-- The first input's pooled array. -/
theorem v3_apply (X : S5.Idx → EReal) (hX : Finite X) (b : Fin 2) (c : Fin 32) (sd sh sw : Fin 16) :
    val_main_v3 (F := Ideal) X (ix5 b c sd sh sw) = ((pooled (toArr X) b c sd sh sw : ℝ) : EReal) := by
  rw [val_main_v3_apply, val_main_v2_apply, val_main_cst_0_apply]
  unfold val_main_v1 val_main_v0
  simp only [Host.reduceAdd, Ideal.hostReduceAdd_def, Ideal.hostDivf_def, Ideal.ofBits_def, val_main_cst_apply,
    Cert.Consts.ofBits_zero, Cert.Consts.ofBits_64]
  exact pool_apply X hX b c sd sh sw

/-- The second input's pooled array. -/
theorem v10_apply (X : S5.Idx → EReal) (hX : Finite X) (b : Fin 2) (c : Fin 32) (sd sh sw : Fin 16) :
    val_main_v10 (F := Ideal) X (ix5 b c sd sh sw) = ((pooled (toArr X) b c sd sh sw : ℝ) : EReal) := by
  rw [val_main_v10_apply, val_main_v9_apply, val_main_cst_2_apply]
  unfold val_main_v8 val_main_v7
  simp only [Host.reduceAdd, Ideal.hostReduceAdd_def, Ideal.hostDivf_def, Ideal.ofBits_def, val_main_cst_1_apply,
    Cert.Consts.ofBits_zero, Cert.Consts.ofBits_64]
  exact pool_apply X hX b c sd sh sw

end Cert.RefValue

end
-- ==== Proof.RefNorm.lean ====
/-
  The reference's normalization stage read at an index: row `n` of the 8192 × 32 matrix is the channel vector of
  the position `pos n`, its norm is bounded below by `eps`, and the divided row is `Spec.U`.
-/
import proofs.«123074_j61263413510182_2_alg».proof.Proof.RefPool

noncomputable section

namespace Cert.RefValue

open Cert.ReferenceIdeal Cert.ReferenceIdeal.Gen Cert.ReferenceIdeal.Read Idealize.ShloMosaic
  Idealize.ShloMosaic.ValueIdx Idealize.ShloMosaic.StableHlo Cert.Spec

/-- The position that row `n` of the 8192-row matrices stands for: `n = ((b · 16 + sd) · 16 + sh) · 16 + sw`. -/
def pos (n : Fin 8192) : Pos :=
  (⟨n.val / 4096, by have := n.isLt; omega⟩, ⟨n.val / 256 % 16, by omega⟩, ⟨n.val / 16 % 16, by omega⟩,
    ⟨n.val % 16, by omega⟩)

/-- Rows and positions correspond one to one. -/
def posEquiv : Fin 8192 ≃ Pos where
  toFun := pos
  invFun p := ⟨p.1.val * 4096 + p.2.1.val * 256 + p.2.2.1.val * 16 + p.2.2.2.val, by
    have := p.1.isLt; have := p.2.1.isLt; have := p.2.2.1.isLt; have := p.2.2.2.isLt; omega⟩
  left_inv n := by
    apply Fin.ext
    have := n.isLt
    show n.val / 4096 * 4096 + n.val / 256 % 16 * 256 + n.val / 16 % 16 * 16 + n.val % 16 = n.val
    omega
  right_inv p := by
    obtain ⟨b, sd, sh, sw⟩ := p
    have := b.isLt; have := sd.isLt; have := sh.isLt; have := sw.isLt
    refine Prod.ext (Fin.ext ?_) (Prod.ext (Fin.ext ?_) (Prod.ext (Fin.ext ?_) (Fin.ext ?_)))
    · show (b.val * 4096 + sd.val * 256 + sh.val * 16 + sw.val) / 4096 = b.val
      omega
    · show (b.val * 4096 + sd.val * 256 + sh.val * 16 + sw.val) / 256 % 16 = sd.val
      omega
    · show (b.val * 4096 + sd.val * 256 + sh.val * 16 + sw.val) / 16 % 16 = sh.val
      omega
    · show (b.val * 4096 + sd.val * 256 + sh.val * 16 + sw.val) % 16 = sw.val
      omega

theorem posEquiv_apply (n : Fin 8192) : posEquiv n = pos n := rfl

/-- The coercion of a maximum of reals. -/
theorem coe_max (a b : ℝ) : ((max a b : ℝ) : EReal) = max (a : EReal) (b : EReal) :=
  EReal.coe_strictMono.monotone.map_max

/-- Row-major arithmetic of the two reshapes and the transpose, on the digits of a row number
    `n = 4096 b + 256 sd + 16 sh + sw` and a channel `c`. -/
theorem row_arith (b sd sh sw c n : ℕ) (hb : b < 2) (hsd : sd < 16) (hsh : sh < 16) (hsw : sw < 16) (hc : c < 32)
    (hn : n = 4096 * b + 256 * sd + 16 * sh + sw) :
    (((n * 32 + c) / 131072 * 32 + (n * 32 + c) % 32) * 4096 + (n * 32 + c) / 32 % 4096) / 131072 = b
    ∧ (((n * 32 + c) / 131072 * 32 + (n * 32 + c) % 32) * 4096 + (n * 32 + c) / 32 % 4096) / 4096 % 32 = c
    ∧ (((n * 32 + c) / 131072 * 32 + (n * 32 + c) % 32) * 4096 + (n * 32 + c) / 32 % 4096) / 256 % 16 = sd
    ∧ (((n * 32 + c) / 131072 * 32 + (n * 32 + c) % 32) * 4096 + (n * 32 + c) / 32 % 4096) / 16 % 16 = sh
    ∧ (((n * 32 + c) / 131072 * 32 + (n * 32 + c) % 32) * 4096 + (n * 32 + c) / 32 % 4096) % 16 = sw := by
  subst hn
  have h1 : ((4096 * b + 256 * sd + 16 * sh + sw) * 32 + c) / 131072 = b := by omega
  have h2 : ((4096 * b + 256 * sd + 16 * sh + sw) * 32 + c) % 32 = c := by omega
  have h3 : ((4096 * b + 256 * sd + 16 * sh + sw) * 32 + c) / 32 % 4096 = 256 * sd + 16 * sh + sw := by omega
  rw [h1, h2, h3]
  clear h1 h2 h3
  refine ⟨by omega, by omega, by omega, by omega, by omega⟩

/-- Through the two reshapes and the transpose, entry `(n, c)` of the matrix is the pooled entry `(b, c, sd, sh, sw)`
    of the position `pos n`. -/
theorem idx_v6 (n : Fin 8192) (c : Fin 32) :
    idx_main_v4 (idx_main_v5 (idx_main_v6 (ix2 n c)))
      = (ix5 (pos n).1 c (pos n).2.1 (pos n).2.2.1 (pos n).2.2.2 : S2x32x16x16x16.Idx) := by
  have hn := n.isLt; have hc := c.isLt
  obtain ⟨e0, e1, e2, e3, e4⟩ := row_arith (n.val / 4096) (n.val / 256 % 16) (n.val / 16 % 16) (n.val % 16) c.val n.val
    (by omega) (by omega) (by omega) (by omega) hc (by omega)
  funext a
  apply Fin.ext
  match a with
  | ⟨0, _⟩ => exact e0
  | ⟨1, _⟩ => exact e1
  | ⟨2, _⟩ => exact e2
  | ⟨3, _⟩ => exact e3
  | ⟨4, _⟩ => exact e4

/-- The same for the second input's chain (the index functions are the same functions under other names). -/
theorem idx_v13 (n : Fin 8192) (c : Fin 32) :
    idx_main_v11 (idx_main_v12 (idx_main_v13 (ix2 n c)))
      = (ix5 (pos n).1 c (pos n).2.1 (pos n).2.2.1 (pos n).2.2.2 : S2x32x16x16x16.Idx) :=
  idx_v6 n c

/-- The sum of squares is not negative. -/
theorem sumsq_nonneg (x : Arr) (b : Fin 2) (sd sh sw : Fin 16) : 0 ≤ sumsq x b sd sh sw :=
  Finset.sum_nonneg fun _ _ => mul_self_nonneg _

/-! ### First input -/

theorem v6_apply (X : S5.Idx → EReal) (hX : Finite X) (n : Fin 8192) (c : Fin 32) :
    val_main_v6 (F := Ideal) X (ix2 n c)
      = ((pooled (toArr X) (pos n).1 c (pos n).2.1 (pos n).2.2.1 (pos n).2.2.2 : ℝ) : EReal) := by
  rw [val_main_v6_apply, val_main_v5_apply, val_main_v4_apply, idx_v6, v3_apply X hX]

/-- The norm column: the square root of the row's sum of squares, bounded below by `eps`. -/
theorem v16_apply (X : S5.Idx → EReal) (hX : Finite X) (n : Fin 8192) :
    val_main_v16 (F := Ideal) X (ix2 n (0 : Fin 1))
      = ((nrm (toArr X) (pos n).1 (pos n).2.1 (pos n).2.2.1 (pos n).2.2.2 : ℝ) : EReal) := by
  have hidx : ∀ k : Fin 32, idx_main_call0_v1 (idx_main_call0_v2 (ix2 n (0 : Fin 1))) k = (ix2 n k : S8192x32.Idx) := by
    intro k; funext a
    match a with
    | ⟨0, _⟩ => rfl
    | ⟨1, _⟩ => rfl
  rw [val_main_v16_apply, val_main_v15_apply, val_main_cst_3_apply, val_main_v14_apply, val_main_call0_v2_apply,
    val_main_call0_v1_apply, val_main_call0_cst_apply]
  simp only [val_main_call0_v0_apply, hidx, v6_apply X hX, Ideal.mulf_def, Ideal.ofBits_def, Ideal.maximumf_def,
    Ideal.hostUnary_sqrt_def, Cert.Consts.ofBits_zero, Cert.Consts.ofBits_eps, zero_add, ← EReal.coe_mul, ← coe_sum]
  have h0 : ¬ (∑ i : Fin 32, pooled (toArr X) (pos n).1 i (pos n).2.1 (pos n).2.2.1 (pos n).2.2.2
      * pooled (toArr X) (pos n).1 i (pos n).2.1 (pos n).2.2.1 (pos n).2.2.2) < 0 :=
    not_lt.2 (sumsq_nonneg (toArr X) _ _ _ _)
  rw [Ideal.sqrt_coe, if_neg h0, ← coe_max]
  rfl

/-- The normalized matrix: entry `(n, c)` is `U` at the position `pos n`. -/
theorem v18_apply (X : S5.Idx → EReal) (hX : Finite X) (n : Fin 8192) (c : Fin 32) :
    val_main_v18 (F := Ideal) X (ix2 n c) = ((U (toArr X) (pos n) c : ℝ) : EReal) := by
  have h17 : idx_main_v17 (ix2 n c) = (ix2 n (0 : Fin 1) : S8192x1.Idx) := by
    funext a
    match a with
    | ⟨0, _⟩ => rfl
    | ⟨1, _⟩ => rfl
  rw [val_main_v18_apply, val_main_v17_apply, h17, v16_apply X hX, v6_apply X hX, Ideal.hostDivf_def,
    Ideal.div_coe (ne_of_gt (nrm_pos _ _ _ _ _)), ← EReal.coe_mul, mul_one_div]
  rfl

/-! ### Second input: the same stages under the second chain's names -/

theorem v13_apply (X : S5.Idx → EReal) (hX : Finite X) (n : Fin 8192) (c : Fin 32) :
    val_main_v13 (F := Ideal) X (ix2 n c)
      = ((pooled (toArr X) (pos n).1 c (pos n).2.1 (pos n).2.2.1 (pos n).2.2.2 : ℝ) : EReal) := by
  rw [val_main_v13_apply, val_main_v12_apply, val_main_v11_apply, idx_v13, v10_apply X hX]

/-- The norm column: the square root of the row's sum of squares, bounded below by `eps`. -/
theorem v23_apply (X : S5.Idx → EReal) (hX : Finite X) (n : Fin 8192) :
    val_main_v23 (F := Ideal) X (ix2 n (0 : Fin 1))
      = ((nrm (toArr X) (pos n).1 (pos n).2.1 (pos n).2.2.1 (pos n).2.2.2 : ℝ) : EReal) := by
  have hidx : ∀ k : Fin 32, idx_main_call1_v1 (idx_main_call1_v2 (ix2 n (0 : Fin 1))) k = (ix2 n k : S8192x32.Idx) := by
    intro k; funext a
    match a with
    | ⟨0, _⟩ => rfl
    | ⟨1, _⟩ => rfl
  rw [val_main_v23_apply, val_main_v22_apply, val_main_cst_4_apply, val_main_v21_apply, val_main_call1_v2_apply,
    val_main_call1_v1_apply, val_main_call1_cst_apply]
  simp only [val_main_call1_v0_apply, hidx, v13_apply X hX, Ideal.mulf_def, Ideal.ofBits_def, Ideal.maximumf_def,
    Ideal.hostUnary_sqrt_def, Cert.Consts.ofBits_zero, Cert.Consts.ofBits_eps, zero_add, ← EReal.coe_mul, ← coe_sum]
  have h0 : ¬ (∑ i : Fin 32, pooled (toArr X) (pos n).1 i (pos n).2.1 (pos n).2.2.1 (pos n).2.2.2
      * pooled (toArr X) (pos n).1 i (pos n).2.1 (pos n).2.2.1 (pos n).2.2.2) < 0 :=
    not_lt.2 (sumsq_nonneg (toArr X) _ _ _ _)
  rw [Ideal.sqrt_coe, if_neg h0, ← coe_max]
  rfl

/-- The normalized matrix: entry `(n, c)` is `U` at the position `pos n`. -/
theorem v25_apply (X : S5.Idx → EReal) (hX : Finite X) (n : Fin 8192) (c : Fin 32) :
    val_main_v25 (F := Ideal) X (ix2 n c) = ((U (toArr X) (pos n) c : ℝ) : EReal) := by
  have h17 : idx_main_v24 (ix2 n c) = (ix2 n (0 : Fin 1) : S8192x1.Idx) := by
    funext a
    match a with
    | ⟨0, _⟩ => rfl
    | ⟨1, _⟩ => rfl
  rw [val_main_v25_apply, val_main_v24_apply, h17, v23_apply X hX, v13_apply X hX, Ideal.hostDivf_def,
    Ideal.div_coe (ne_of_gt (nrm_pos _ _ _ _ _)), ← EReal.coe_mul, mul_one_div]
  rfl

end Cert.RefValue

end
-- ==== Proof.RefValue.lean ====
/-
  The reference's value: the two 8192 × 8192 similarity matrices, their squared difference summed over all pairs of
  rows and divided by 2²⁶ — `Spec.refLoss` of the two real arrays under the inputs.
-/
import proofs.«123074_j61263413510182_2_alg».proof.Proof.RefNorm

noncomputable section

namespace Cert.RefValue

open Cert.ReferenceIdeal Cert.ReferenceIdeal.Gen Cert.ReferenceIdeal.Read Idealize.ShloMosaic
  Idealize.ShloMosaic.ValueIdx Idealize.ShloMosaic.StableHlo Cert.Spec

/-- The first similarity matrix: entry `(p, q)` is the similarity of the positions of rows `p` and `q`. -/
theorem v20_apply (X : S5.Idx → EReal) (hX : Finite X) (p q : Fin 8192) :
    val_main_v20 (F := Ideal) X (ix2 p q) = ((sim (toArr X) (pos p) (pos q) : ℝ) : EReal) := by
  have hl : ∀ k : Fin 32, lidx_main_v20 (ix2 p q) k = (ix2 p k : S8192x32.Idx) := by
    intro k; funext a
    match a with
    | ⟨0, _⟩ => rfl
    | ⟨1, _⟩ => rfl
  have hr : ∀ k : Fin 32, idx_main_v19 (ridx_main_v20 (ix2 p q) k) = (ix2 q k : S8192x32.Idx) := by
    intro k; funext a
    match a with
    | ⟨0, _⟩ => rfl
    | ⟨1, _⟩ => rfl
  rw [val_main_v20_apply]
  simp only [val_main_v19_apply, hl, hr, v18_apply X hX, ← EReal.coe_mul, ← coe_sum]
  rfl

/-- The second similarity matrix. -/
theorem v27_apply (X : S5.Idx → EReal) (hX : Finite X) (p q : Fin 8192) :
    val_main_v27 (F := Ideal) X (ix2 p q) = ((sim (toArr X) (pos p) (pos q) : ℝ) : EReal) := by
  have hl : ∀ k : Fin 32, lidx_main_v27 (ix2 p q) k = (ix2 p k : S8192x32.Idx) := by
    intro k; funext a
    match a with
    | ⟨0, _⟩ => rfl
    | ⟨1, _⟩ => rfl
  have hr : ∀ k : Fin 32, idx_main_v26 (ridx_main_v27 (ix2 p q) k) = (ix2 q k : S8192x32.Idx) := by
    intro k; funext a
    match a with
    | ⟨0, _⟩ => rfl
    | ⟨1, _⟩ => rfl
  rw [val_main_v27_apply]
  simp only [val_main_v26_apply, hl, hr, v25_apply X hX, ← EReal.coe_mul, ← coe_sum]
  rfl

/-- The squared difference of the two similarity matrices at `(p, q)`. -/
theorem v29_apply (X0 X1 : S5.Idx → EReal) (h0 : Finite X0) (h1 : Finite X1) (p q : Fin 8192) :
    val_main_v29 (F := Ideal) X0 X1 (ix2 p q)
      = (((sim (toArr X0) (pos p) (pos q) - sim (toArr X1) (pos p) (pos q))
          * (sim (toArr X0) (pos p) (pos q) - sim (toArr X1) (pos p) (pos q)) : ℝ) : EReal) := by
  rw [val_main_v29_apply, val_main_v28_apply, v20_apply X0 h0, v27_apply X1 h1, Ideal.subf_def, Ideal.mulf_def,
    ← EReal.coe_sub, ← EReal.coe_mul]

/-- A double sum over rows is the double sum over positions. -/
theorem sum_rows (f : Pos → Pos → ℝ) :
    ∑ a : Fin 8192, ∑ b : Fin 8192, f (pos a) (pos b) = ∑ p : Pos, ∑ q : Pos, f p q := by
  rw [← Equiv.sum_comp posEquiv (fun p => ∑ q : Pos, f p q)]
  refine Finset.sum_congr rfl fun a _ => ?_
  exact Equiv.sum_comp posEquiv (fun q => f (pos a) q)

/-- The reference's result on finite inputs is the mean squared difference of the two similarity matrices. -/
theorem ref_value (X0 X1 : Cert.Spec.S5.Idx → EReal) (h0 : Cert.Spec.Finite X0) (h1 : Cert.Spec.Finite X1) :
    Cert.ReferenceIdeal.Read.val_main_v31 (F := Ideal) X0 X1
      = fun _ => ((Cert.Spec.refLoss (Cert.Spec.toArr X0) (Cert.Spec.toArr X1) : ℝ) : EReal) := by
  funext i
  rw [val_main_v31_apply, val_main_cst_6_apply, val_main_v30_apply, val_main_cst_5_apply, Ideal.hostDivf_def,
    Ideal.ofBits_def, Ideal.ofBits_def, Cert.Consts.ofBits_zero, Cert.Consts.ofBits_2p26, zero_add, sum_idx2]
  simp only [v29_apply X0 X1 h0 h1, ← coe_sum]
  rw [Ideal.div_coe (by norm_num), ← EReal.coe_mul, mul_one_div,
    sum_rows (fun p q => (sim (toArr X0) p q - sim (toArr X1) p q) * (sim (toArr X0) p q - sim (toArr X1) p q))]
  rfl

end Cert.RefValue

end
-- ==== Proof.GramLaw.lean ====
/-
  The Frobenius-norm identity behind the two programs.

  For real matrices `A B : N → C → ℝ` (rows indexed by positions, columns by channels),
    ∑_{p,q} ((A Aᵀ)_{pq} − (B Bᵀ)_{pq})² = ∑_{c,c'} (AᵀA)_{cc'}² + ∑_{c,c'} (BᵀB)_{cc'}² − 2 ∑_{c,c'} (AᵀB)_{cc'}².
  The one step that is not `ring` is an exchange of the order of summation:
    ∑_{p,q} (∑_c X_{pc} Y_{qc}) (∑_{c'} Z_{pc'} W_{qc'}) = ∑_{c,c'} (∑_p X_{pc} Z_{pc'}) (∑_q Y_{qc} W_{qc'}),
  both sides being the sum of `X p c * Y q c * Z p c' * W q c'` over all `p q c c'`.
-/
import proofs.«123074_j61263413510182_2_alg».proof.Proof.Spec

namespace Cert.Spec

open BigOperators

/-- Exchange of the order of summation: pairs of rows against pairs of columns. -/
theorem sum_pair_swap {N C : Type*} [Fintype N] [Fintype C] (X Y Z W : N → C → ℝ) :
    ∑ p, ∑ q, (∑ c, X p c * Y q c) * (∑ c', Z p c' * W q c')
      = ∑ c, ∑ c', (∑ p, X p c * Z p c') * (∑ q, Y q c * W q c') := by
  simp_rw [Finset.sum_mul_sum]
  calc ∑ p, ∑ q, ∑ c, ∑ c', X p c * Y q c * (Z p c' * W q c')
      = ∑ p, ∑ c, ∑ q, ∑ c', X p c * Y q c * (Z p c' * W q c') :=
        Finset.sum_congr rfl fun p _ => Finset.sum_comm
    _ = ∑ c, ∑ p, ∑ q, ∑ c', X p c * Y q c * (Z p c' * W q c') := Finset.sum_comm
    _ = ∑ c, ∑ p, ∑ c', ∑ q, X p c * Y q c * (Z p c' * W q c') :=
        Finset.sum_congr rfl fun c _ => Finset.sum_congr rfl fun p _ => Finset.sum_comm
    _ = ∑ c, ∑ c', ∑ p, ∑ q, X p c * Y q c * (Z p c' * W q c') :=
        Finset.sum_congr rfl fun c _ => Finset.sum_comm
    _ = ∑ c, ∑ c', ∑ p, ∑ q, X p c * Z p c' * (Y q c * W q c') := by
        refine Finset.sum_congr rfl fun c _ => Finset.sum_congr rfl fun c' _ =>
          Finset.sum_congr rfl fun p _ => Finset.sum_congr rfl fun q _ => ?_
        ring

/-- ‖A Aᵀ − B Bᵀ‖² = ‖AᵀA‖² + ‖BᵀB‖² − 2 ‖AᵀB‖², squares written as products. -/
theorem gram_identity {N C : Type*} [Fintype N] [Fintype C] (A B : N → C → ℝ) :
    ∑ p, ∑ q, ((∑ c, A p c * A q c) - (∑ c, B p c * B q c))
        * ((∑ c, A p c * A q c) - (∑ c, B p c * B q c))
      = (∑ c, ∑ c', (∑ p, A p c * A p c') * (∑ p, A p c * A p c'))
        + (∑ c, ∑ c', (∑ p, B p c * B p c') * (∑ p, B p c * B p c'))
        - 2 * (∑ c, ∑ c', (∑ p, A p c * B p c') * (∑ p, A p c * B p c')) := by
  have expand : ∀ a b : ℝ, (a - b) * (a - b) = a * a + b * b - 2 * (a * b) := fun a b => by ring
  simp_rw [expand, Finset.sum_sub_distrib, Finset.sum_add_distrib, ← Finset.mul_sum]
  rw [sum_pair_swap A A A A, sum_pair_swap B B B B, sum_pair_swap A A B B]

/-- The two real losses are the same number. -/
theorem ref_eq_ker (x y : Arr) : refLoss x y = kerLoss x y := by
  unfold refLoss kerLoss sim gram
  rw [gram_identity (U x) (U y)]

end Cert.Spec
-- ==== Proof.FiniteIn.lean ====
/-
  The precondition says that every input entry is a real number.

  The predicate is `all (|p1| < +∞) ∧ all (|p2| < +∞)`. In the extended reals `|x| = max x (-x)` is `+∞` at both
  infinities, so `|x| < +∞` holds exactly when `x` is neither `⊥` nor `⊤`.
-/
import Idealize.ShloMosaic.Lib.ReduceAll
import Idealize.ShloMosaic.Lib.IdealHost
import Idealize.ShloMosaic.PureOps.Ideal.Laws
import proofs.«123074_j61263413510182_2_alg».proof.Pre_finite_inputs
import proofs.«123074_j61263413510182_2_alg».proof.Proof.Lift

namespace Cert.FiniteIn

open Idealize.ShloMosaic Idealize.ShloMosaic.ValueIdx Cert.Pre_finite_inputs

/-- The single-precision pattern of `+∞` denotes `⊤`. -/
theorem ofBits_inf : Ideal.ofBits .f32 0x7F800000#32 = (⊤ : EReal) := by
  simp [Ideal.ofBits, Ideal.ieee]

/-- `|x| < +∞` says that `x` is a real. -/
theorem ne_bot_top_of_abs_lt_top (x : EReal) (h : max x (-x) < ⊤) : x ≠ ⊥ ∧ x ≠ ⊤ := by
  constructor
  · rintro rfl; simp at h
  · rintro rfl; simp at h

/-- An ordered "less than" that came out true. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

instance : Subsingleton S_.Idx := ⟨fun a b => funext fun d => d.elim0⟩

/-- One `all (|X| < +∞)`: every entry of `X` is a real. -/
theorem finite_of_all [Facts] (X : FVec Ideal S2x32x64x64x64 .f32)
    (e : Host.reduce IntOp.andi
        (cmpf .olt (Host.absf X)
          (broadcastInDim S2x32x64x64x64 ![] Facts.bcast_S_S2x32x64x64x64 (constant (F := Ideal) S_ .f32 0x7F800000#32)))
        (constantI S_ 1 1#1) Facts.reducesTo_S2x32x64x64x64_S_d0_1_2_3_4 Facts.h_S_ ix0 = 1#1) :
    Cert.Spec.Finite X := by
  intro i
  have hi := Host.reduce_andi_all _ _ _ _ _ e i
  rw [cmpf_apply, broadcastInDim_scalar_apply, constant_apply, ofBits_inf] at hi
  exact ne_bot_top_of_abs_lt_top (X i) (lt_of_cmp_olt _ _ hi)

/-- The precondition of both programs: the two inputs have only real entries. -/
theorem finite_of_fn [Facts] (X0 X1 : FVec Ideal S2x32x64x64x64 .f32)
    (h : Cert.Pre_finite_inputs.fn (F := Ideal) X0 X1 = fun _ => 1#1) :
    Cert.Spec.Finite X0 ∧ Cert.Spec.Finite X1 := by
  have h0 := congrFun h ix0
  dsimp only [Cert.Pre_finite_inputs.fn] at h0
  obtain ⟨e0, e1⟩ := IntOp.andi_eq_one.1 h0
  exact ⟨finite_of_all X0 e0, finite_of_all X1 e1⟩

end Cert.FiniteIn
-- ==== Proof.KerPieces.lean ====
/-
  What the kernel's body leaves behind at a grid point, as functions of the blocks it loads: the three carried
  32 × 32 accumulators (zeroed at the first point of a batch, otherwise the previous contents, plus the point's
  three channel-by-channel products) and, at the last point of a batch, the copies of the accumulators in the
  three output blocks.
-/
import proofs.«123074_j61263413510182_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KerPieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-! ## What each case leaves in the three carried accumulators

At the first point of a batch (case A) the accumulators are zeroed and then receive the point's three channel
products; elsewhere (cases B and C) the products are added to what the point before left (`xs0 xs1 xs2`).
At the last point of a batch (case C) the three accumulators are also copied to the outputs. -/

theorem sA0 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : cond0_0 i) (hc1 : ¬cond0_1 i)
    (x0 : Vec F S1x32x4x64x64 .f32) (x1 : Vec F S1x32x4x64x64 .f32) (x2 : Vec F S64x16 .f32) :
    sout0_A_0 c i arg2 harg2 arg3 harg3 arg4 harg4 arg5 harg5 arg6 harg6 arg7 harg7 arg8 harg8 arg9 harg9 arg10 harg10 hc0 hc1 x0 x1 x2 = k0_pay12 (k0_pay7 x2 x0) (k0_pay9 x2 x0) k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S32x32) hz2, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sA1 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : cond0_0 i) (hc1 : ¬cond0_1 i)
    (x0 : Vec F S1x32x4x64x64 .f32) (x1 : Vec F S1x32x4x64x64 .f32) (x2 : Vec F S64x16 .f32) :
    sout0_A_1 c i arg2 harg2 arg3 harg3 arg4 harg4 arg5 harg5 arg6 harg6 arg7 harg7 arg8 harg8 arg9 harg9 arg10 harg10 hc0 hc1 x0 x1 x2 = k0_pay13 (k0_pay8 x2 x1) k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S32x32) hz2, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sA2 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : cond0_0 i) (hc1 : ¬cond0_1 i)
    (x0 : Vec F S1x32x4x64x64 .f32) (x1 : Vec F S1x32x4x64x64 .f32) (x2 : Vec F S64x16 .f32) :
    sout0_A_2 c i arg2 harg2 arg3 harg3 arg4 harg4 arg5 harg5 arg6 harg6 arg7 harg7 arg8 harg8 arg9 harg9 arg10 harg10 hc0 hc1 x0 x1 x2 = k0_pay14 (k0_pay7 x2 x0) (k0_pay8 x2 x1) (k0_pay9 x2 x0) k0_pay6 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S32x32) hz2, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sB0 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : ¬cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_B_0 c i arg2 harg2 arg3 harg3 arg4 harg4 arg5 harg5 arg6 harg6 arg7 harg7 arg8 harg8 arg9 harg9 arg10 harg10 hc0 hc1 x0 x1 x2 xs0 xs1 xs2 = k0_pay12 (k0_pay7 x2 x0) (k0_pay9 x2 x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sB1 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : ¬cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_B_1 c i arg2 harg2 arg3 harg3 arg4 harg4 arg5 harg5 arg6 harg6 arg7 harg7 arg8 harg8 arg9 harg9 arg10 harg10 hc0 hc1 x0 x1 x2 xs0 xs1 xs2 = k0_pay13 (k0_pay8 x2 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sB2 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : ¬cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_B_2 c i arg2 harg2 arg3 harg3 arg4 harg4 arg5 harg5 arg6 harg6 arg7 harg7 arg8 harg8 arg9 harg9 arg10 harg10 hc0 hc1 x0 x1 x2 xs0 xs1 xs2 = k0_pay14 (k0_pay7 x2 x0) (k0_pay8 x2 x1) (k0_pay9 x2 x0) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sC0 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_C_0 c i arg2 harg2 arg3 harg3 arg4 harg4 arg5 harg5 arg6 harg6 arg7 harg7 arg8 harg8 arg9 harg9 arg10 harg10 hc0 hc1 x0 x1 x2 xs0 xs1 xs2 = k0_pay12 (k0_pay7 x2 x0) (k0_pay9 x2 x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sC1 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_C_1 c i arg2 harg2 arg3 harg3 arg4 harg4 arg5 harg5 arg6 harg6 arg7 harg7 arg8 harg8 arg9 harg9 arg10 harg10 hc0 hc1 x0 x1 x2 xs0 xs1 xs2 = k0_pay13 (k0_pay8 x2 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem sC2 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    sout0_C_2 c i arg2 harg2 arg3 harg3 arg4 harg4 arg5 harg5 arg6 harg6 arg7 harg7 arg8 harg8 arg9 harg9 arg10 harg10 hc0 hc1 x0 x1 x2 xs0 xs1 xs2 = k0_pay14 (k0_pay7 x2 x0) (k0_pay8 x2 x1) (k0_pay9 x2 x0) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S32x32) hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem oC3 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    out0_C_3 c i arg2 harg2 arg3 harg3 arg4 harg4 arg5 harg5 arg6 harg6 arg7 harg7 arg8 harg8 arg9 harg9 arg10 harg10 hc0 hc1 x0 x1 x2 xs0 xs1 xs2 = k0_pay1 (k0_pay12 (k0_pay7 x2 x0) (k0_pay9 x2 x0) xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x32x32) hz3, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem oC4 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    out0_C_4 c i arg2 harg2 arg3 harg3 arg4 harg4 arg5 harg5 arg6 harg6 arg7 harg7 arg8 harg8 arg9 harg9 arg10 harg10 hc0 hc1 x0 x1 x2 xs0 xs1 xs2 = k0_pay2 (k0_pay13 (k0_pay8 x2 x1) xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x32x32) hz3, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

theorem oC5 (c : Dev nD) (i : grid0.Coords) (arg2 : Memref sig .tc .vmem S1x32x4x64x64 .f32) (harg2 : arg2.IsWhole) (arg3 : Memref sig .tc .vmem S1x32x4x64x64 .f32) (harg3 : arg3.IsWhole) (arg4 : Memref sig .tc .vmem S64x16 .f32) (harg4 : arg4.IsWhole) (arg5 : Memref sig .tc .vmem S1x32x32 .f32) (harg5 : arg5.IsWhole) (arg6 : Memref sig .tc .vmem S1x32x32 .f32) (harg6 : arg6.IsWhole) (arg7 : Memref sig .tc .vmem S1x32x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S32x32 .f32) (harg10 : arg10.IsWhole) (hc0 : ¬cond0_0 i) (hc1 : cond0_1 i)
    (x0 : Vec F S1x32x4x64x64 .f32) (x1 : Vec F S1x32x4x64x64 .f32) (x2 : Vec F S64x16 .f32) (xs0 : Vec F S32x32 .f32) (xs1 : Vec F S32x32 .f32) (xs2 : Vec F S32x32 .f32) :
    out0_C_5 c i arg2 harg2 arg3 harg3 arg4 harg4 arg5 harg5 arg6 harg6 arg7 harg7 arg8 harg8 arg9 harg9 arg10 harg10 hc0 hc1 x0 x1 x2 xs0 xs1 xs2 = k0_pay3 (k0_pay14 (k0_pay7 x2 x0) (k0_pay8 x2 x1) (k0_pay9 x2 x0) xs2) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  rw [View.canon_unit_zero (S := S1x32x32) hz3, View.readCov_unit_zero (S := S32x32) _ hz2]
  simp only [View.readAt_eq_ld, harg2.read_unread, harg3.read_unread, harg4.read_unread, harg8.read_unread, harg9.read_unread, harg10.read_unread, View.ld_unit_zero (S := S32x32) hz2, View.ld_unit_zero (S := S64x16) hz2, View.ld_unit_zero (S := S1x32x4x64x64) hz5, shapeCast_self]

end Cert.KerPieces
end
-- ==== Proof.KerOps.lean ====
/-
  The layout operations, reductions and block products of the kernel's body, each read at explicit coordinates:
  a reshape keeps the row-major position, a transpose swaps two coordinates, a sum over one axis is a finite sum
  over that coordinate, and a block product into a zero accumulator is the sum over the contracted coordinate.
-/
import proofs.«123074_j61263413510182_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KerOps

open Idealize.ShloMosaic Idealize.ShloMosaic.TcCoe Idealize.ShloMosaic.Tactic Idealize.SL.Sem
open Cert.KernelIdeal Cert.KernelIdeal.Gen

variable [Cert.KernelIdeal.Facts]

open Idealize.ShloMosaic.ValueIdx

/-! ## The body's operations read at an index

Each lemma reads one layout operation, reduction or block product of the kernel's body at explicit coordinates. -/

/-- Row `64 c + h` of the `2048`-row matrices: channel `c`, height `h`. -/
def rowCH (c : Fin 32) (h : Fin 64) : Fin 2048 := ⟨c.val * 64 + h.val, by omega⟩
/-- Row `16 c + s` of the `512`-row matrices: channel `c`, pooled width `s`. -/
def rowCS (c : Fin 32) (s : Fin 16) : Fin 512 := ⟨c.val * 16 + s.val, by omega⟩
/-- The two pooled coordinates of column `k` of the `256`-column matrices. -/
def colH (k : Fin 256) : Fin 16 := ⟨k.val / 16, by omega⟩
def colW (k : Fin 256) : Fin 16 := ⟨k.val % 16, by omega⟩

theorem cast5to4 (v : Vec Ideal S1x32x4x64x64 .f32) (c : Fin 32) (kd : Fin 4) (h w : Fin 64) :
    shapeCast S32x4x64x64 v shapeCasts_S1x32x4x64x64_S32x4x64x64 (ix4 c kd h w) = v (ix5 (0 : Fin 1) c kd h w) :=
  shapeCast_apply v _ _ _ (by rw [Shape.rowMajor_val_five, Shape.rowMajor_val_four]; show ((((0 * 32 + c.val) * 4 + kd.val) * 64 + h.val) * 64 + w.val) = ((c.val * 4 + kd.val) * 64 + h.val) * 64 + w.val; omega)

theorem sumDepth (v : FVec Ideal S32x4x64x64 .f32) (c : Fin 32) (h w : Fin 64) :
    multiReduction .add [1] S32x64x64 v 0x00000000#32 reduces_S32x4x64x64_S32x64x64 (.inl rfl) rfl (ix3 c h w)
      = ∑ kd : Fin 4, v (ix4 c kd h w) := by
  refine (Ideal.multiReduction_add_single v 0x00000000#32 reduces_S32x4x64x64_S32x64x64 (.inl rfl) rfl (ix3 c h w)).trans ?_
  refine Finset.sum_congr rfl fun kd _ => congrArg v ?_
  funext a
  apply Fin.ext
  match a with
  | ⟨0, _⟩ => rfl
  | ⟨1, _⟩ => rfl
  | ⟨2, _⟩ => rfl
  | ⟨3, _⟩ => rfl

theorem cast3to2a (v : FVec Ideal S32x64x64 .f32) (c : Fin 32) (h w : Fin 64) :
    shapeCast S2048x64 v shapeCasts_S32x64x64_S2048x64 (ix2 (rowCH c h) w) = v (ix3 c h w) :=
  shapeCast_apply v _ _ _ (by rw [Shape.rowMajor_val_three, Shape.rowMajor_val_two]; rfl)

theorem mm1_l0 (i : S2048x16.Idx) (q : dot_S2048x64_S64x16_S2048x16_1_0_0_1_n_n.contr.Idx) : (dot_S2048x64_S64x16_S2048x16_1_0_0_1_n_n.lhsIdx i q 0).val = (i 0).val := by
  unfold DotDims.lhsIdx
  rw [dif_neg (show ¬(0 : Fin S2048x64.rank) ∈ dot_S2048x64_S64x16_S2048x16_1_0_0_1_n_n.lhsBatch by decide), dif_pos (show (0 : Fin S2048x64.rank) ∈ dot_S2048x64_S64x16_S2048x16_1_0_0_1_n_n.lhsNonContracting by decide)]
  rfl
theorem mm1_r1 (i : S2048x16.Idx) (q : dot_S2048x64_S64x16_S2048x16_1_0_0_1_n_n.contr.Idx) : (dot_S2048x64_S64x16_S2048x16_1_0_0_1_n_n.rhsIdx i q 1).val = (i 1).val := by
  unfold DotDims.rhsIdx
  rw [dif_neg (show ¬(1 : Fin S64x16.rank) ∈ dot_S2048x64_S64x16_S2048x16_1_0_0_1_n_n.rhsBatch by decide), dif_pos (show (1 : Fin S64x16.rank) ∈ dot_S2048x64_S64x16_S2048x16_1_0_0_1_n_n.rhsNonContracting by decide)]
  rfl

/-- The product of a `2048 × 64` by a `64 × 16` block into a zero accumulator, entry `(i, j)`: the sum over the
    contracted coordinate. -/
theorem mm1 (l : FVec Ideal S2048x64 .f32) (r : FVec Ideal S64x16 .f32) (i : Fin 2048) (j : Fin 16) :
    matmul dot_S2048x64_S64x16_S2048x16_1_0_0_1_n_n none l r (constant S2048x16 .f32 0x00000000#32) (ix2 i j)
      = ∑ k : Fin 64, l (ix2 i k) * r (ix2 k j) := by
  refine (Ideal.matmul_constant_zero_apply dot_S2048x64_S64x16_S2048x16_1_0_0_1_n_n none l r (ix2 i j)).trans ?_
  rw [← Equiv.sum_comp (ValueIdx.contrEquiv1 dot_S2048x64_S64x16_S2048x16_1_0_0_1_n_n 64 rfl rfl).symm]
  refine Finset.sum_congr rfl fun k _ => ?_
  have hk := ValueIdx.contrEquiv1_symm_val dot_S2048x64_S64x16_S2048x16_1_0_0_1_n_n 64 rfl rfl k
  have el : dot_S2048x64_S64x16_S2048x16_1_0_0_1_n_n.lhsIdx (ix2 i j) ((ValueIdx.contrEquiv1 dot_S2048x64_S64x16_S2048x16_1_0_0_1_n_n 64 rfl rfl).symm k) = ix2 i k :=
    funext fun a => Fin.ext (by
      match a with
      | ⟨0, _⟩ => exact mm1_l0 _ _
      | ⟨1, _⟩ => exact (dot_S2048x64_S64x16_S2048x16_1_0_0_1_n_n.lhsIdx_val_of_single rfl _ _).trans hk)
  have er : dot_S2048x64_S64x16_S2048x16_1_0_0_1_n_n.rhsIdx (ix2 i j) ((ValueIdx.contrEquiv1 dot_S2048x64_S64x16_S2048x16_1_0_0_1_n_n 64 rfl rfl).symm k) = ix2 k j :=
    funext fun a => Fin.ext (by
      match a with
      | ⟨0, _⟩ => exact (dot_S2048x64_S64x16_S2048x16_1_0_0_1_n_n.rhsIdx_val_of_single rfl _ _).trans hk
      | ⟨1, _⟩ => exact mm1_r1 _ _)
  rw [el, er]

theorem cast2to3a (v : FVec Ideal S2048x16 .f32) (c : Fin 32) (h : Fin 64) (s : Fin 16) :
    shapeCast S32x64x16 v shapeCasts_S2048x16_S32x64x16 (ix3 c h s) = v (ix2 (rowCH c h) s) :=
  shapeCast_apply v _ _ _ (by rw [Shape.rowMajor_val_three, Shape.rowMajor_val_two]; rfl)

theorem swap1 (v : FVec Ideal S32x64x16 .f32) (c : Fin 32) (s : Fin 16) (h : Fin 64) :
    transpose S32x16x64 [0, 2, 1] v transposes_S32x64x16_p0_2_1_S32x16x64 (ix3 c s h) = v (ix3 c h s) :=
  transpose_apply [0, 2, 1] v _ _ _ (fun b => match b with
    | ⟨0, _⟩ => rfl
    | ⟨1, _⟩ => rfl
    | ⟨2, _⟩ => rfl)

theorem cast3to2b (v : FVec Ideal S32x16x64 .f32) (c : Fin 32) (s : Fin 16) (h : Fin 64) :
    shapeCast S512x64 v shapeCasts_S32x16x64_S512x64 (ix2 (rowCS c s) h) = v (ix3 c s h) :=
  shapeCast_apply v _ _ _ (by rw [Shape.rowMajor_val_three, Shape.rowMajor_val_two]; rfl)

theorem mm2_l0 (i : S512x16.Idx) (q : dot_S512x64_S64x16_S512x16_1_0_0_1_n_n.contr.Idx) : (dot_S512x64_S64x16_S512x16_1_0_0_1_n_n.lhsIdx i q 0).val = (i 0).val := by
  unfold DotDims.lhsIdx
  rw [dif_neg (show ¬(0 : Fin S512x64.rank) ∈ dot_S512x64_S64x16_S512x16_1_0_0_1_n_n.lhsBatch by decide), dif_pos (show (0 : Fin S512x64.rank) ∈ dot_S512x64_S64x16_S512x16_1_0_0_1_n_n.lhsNonContracting by decide)]
  rfl
theorem mm2_r1 (i : S512x16.Idx) (q : dot_S512x64_S64x16_S512x16_1_0_0_1_n_n.contr.Idx) : (dot_S512x64_S64x16_S512x16_1_0_0_1_n_n.rhsIdx i q 1).val = (i 1).val := by
  unfold DotDims.rhsIdx
  rw [dif_neg (show ¬(1 : Fin S64x16.rank) ∈ dot_S512x64_S64x16_S512x16_1_0_0_1_n_n.rhsBatch by decide), dif_pos (show (1 : Fin S64x16.rank) ∈ dot_S512x64_S64x16_S512x16_1_0_0_1_n_n.rhsNonContracting by decide)]
  rfl

/-- The product of a `512 × 64` by a `64 × 16` block into a zero accumulator, entry `(i, j)`: the sum over the
    contracted coordinate. -/
theorem mm2 (l : FVec Ideal S512x64 .f32) (r : FVec Ideal S64x16 .f32) (i : Fin 512) (j : Fin 16) :
    matmul dot_S512x64_S64x16_S512x16_1_0_0_1_n_n none l r (constant S512x16 .f32 0x00000000#32) (ix2 i j)
      = ∑ k : Fin 64, l (ix2 i k) * r (ix2 k j) := by
  refine (Ideal.matmul_constant_zero_apply dot_S512x64_S64x16_S512x16_1_0_0_1_n_n none l r (ix2 i j)).trans ?_
  rw [← Equiv.sum_comp (ValueIdx.contrEquiv1 dot_S512x64_S64x16_S512x16_1_0_0_1_n_n 64 rfl rfl).symm]
  refine Finset.sum_congr rfl fun k _ => ?_
  have hk := ValueIdx.contrEquiv1_symm_val dot_S512x64_S64x16_S512x16_1_0_0_1_n_n 64 rfl rfl k
  have el : dot_S512x64_S64x16_S512x16_1_0_0_1_n_n.lhsIdx (ix2 i j) ((ValueIdx.contrEquiv1 dot_S512x64_S64x16_S512x16_1_0_0_1_n_n 64 rfl rfl).symm k) = ix2 i k :=
    funext fun a => Fin.ext (by
      match a with
      | ⟨0, _⟩ => exact mm2_l0 _ _
      | ⟨1, _⟩ => exact (dot_S512x64_S64x16_S512x16_1_0_0_1_n_n.lhsIdx_val_of_single rfl _ _).trans hk)
  have er : dot_S512x64_S64x16_S512x16_1_0_0_1_n_n.rhsIdx (ix2 i j) ((ValueIdx.contrEquiv1 dot_S512x64_S64x16_S512x16_1_0_0_1_n_n 64 rfl rfl).symm k) = ix2 k j :=
    funext fun a => Fin.ext (by
      match a with
      | ⟨0, _⟩ => exact (dot_S512x64_S64x16_S512x16_1_0_0_1_n_n.rhsIdx_val_of_single rfl _ _).trans hk
      | ⟨1, _⟩ => exact mm2_r1 _ _)
  rw [el, er]

theorem cast2to3b (v : FVec Ideal S512x16 .f32) (c : Fin 32) (s t : Fin 16) :
    shapeCast S32x16x16 v shapeCasts_S512x16_S32x16x16 (ix3 c s t) = v (ix2 (rowCS c s) t) :=
  shapeCast_apply v _ _ _ (by rw [Shape.rowMajor_val_three, Shape.rowMajor_val_two]; rfl)

theorem swap2 (v : FVec Ideal S32x16x16 .f32) (c : Fin 32) (s t : Fin 16) :
    transpose S32x16x16 [0, 2, 1] v transposes_S32x16x16_p0_2_1_S32x16x16 (ix3 c s t) = v (ix3 c t s) :=
  transpose_apply [0, 2, 1] v _ _ _ (fun b => match b with
    | ⟨0, _⟩ => rfl
    | ⟨1, _⟩ => rfl
    | ⟨2, _⟩ => rfl)

theorem sumChan (v : FVec Ideal S32x16x16 .f32) (s t : Fin 16) :
    multiReduction .add [0] S16x16 v 0x00000000#32 reduces_S32x16x16_S16x16 (.inl rfl) rfl (ix2 s t)
      = ∑ c : Fin 32, v (ix3 c s t) := by
  refine (Ideal.multiReduction_add_single v 0x00000000#32 reduces_S32x16x16_S16x16 (.inl rfl) rfl (ix2 s t)).trans ?_
  refine Finset.sum_congr rfl fun c _ => congrArg v ?_
  funext a
  apply Fin.ext
  match a with
  | ⟨0, _⟩ => rfl
  | ⟨1, _⟩ => rfl
  | ⟨2, _⟩ => rfl

theorem castUnit (v : FVec Ideal S16x16 .f32) (s t : Fin 16) :
    shapeCast S1x16x16 v shapeCasts_S16x16_S1x16x16 (ix3 (0 : Fin 1) s t) = v (ix2 s t) :=
  shapeCast_apply v _ _ _ (by rw [Shape.rowMajor_val_three, Shape.rowMajor_val_two]; show s.val * 16 + t.val = (0 * 16 + s.val) * 16 + t.val; omega)

theorem spread (v : FVec Ideal S1x16x16 .f32) (c : Fin 32) (s t : Fin 16) :
    broadcastTo S32x16x16 v broadcasts_S1x16x16_S32x16x16 (ix3 c s t) = v (ix3 (0 : Fin 1) s t) :=
  broadcastTo_apply v _ _ _ (fun a => match a with
    | ⟨0, _⟩ => rfl
    | ⟨1, _⟩ => rfl
    | ⟨2, _⟩ => rfl)

theorem cast3to2c (v : FVec Ideal S32x16x16 .f32) (c : Fin 32) (k : Fin 256) :
    shapeCast S32x256 v shapeCasts_S32x16x16_S32x256 (ix2 c k) = v (ix3 c (colH k) (colW k)) :=
  shapeCast_apply v _ _ _ (by
    rw [Shape.rowMajor_val_three, Shape.rowMajor_val_two]
    show (c.val * 16 + k.val / 16) * 16 + k.val % 16 = c.val * 256 + k.val
    have := k.isLt; omega)

theorem swap3 (v : FVec Ideal S32x256 .f32) (k : Fin 256) (c : Fin 32) :
    transpose S256x32 [1, 0] v transposes_S32x256_p1_0_S256x32 (ix2 k c) = v (ix2 c k) :=
  transpose_apply [1, 0] v _ _ _ (fun b => match b with
    | ⟨0, _⟩ => rfl
    | ⟨1, _⟩ => rfl)

theorem mm3_l0 (i : S32x32.Idx) (q : dot_S32x256_S256x32_S32x32_1_0_0_1_n_n.contr.Idx) : (dot_S32x256_S256x32_S32x32_1_0_0_1_n_n.lhsIdx i q 0).val = (i 0).val := by
  unfold DotDims.lhsIdx
  rw [dif_neg (show ¬(0 : Fin S32x256.rank) ∈ dot_S32x256_S256x32_S32x32_1_0_0_1_n_n.lhsBatch by decide), dif_pos (show (0 : Fin S32x256.rank) ∈ dot_S32x256_S256x32_S32x32_1_0_0_1_n_n.lhsNonContracting by decide)]
  rfl
theorem mm3_r1 (i : S32x32.Idx) (q : dot_S32x256_S256x32_S32x32_1_0_0_1_n_n.contr.Idx) : (dot_S32x256_S256x32_S32x32_1_0_0_1_n_n.rhsIdx i q 1).val = (i 1).val := by
  unfold DotDims.rhsIdx
  rw [dif_neg (show ¬(1 : Fin S256x32.rank) ∈ dot_S32x256_S256x32_S32x32_1_0_0_1_n_n.rhsBatch by decide), dif_pos (show (1 : Fin S256x32.rank) ∈ dot_S32x256_S256x32_S32x32_1_0_0_1_n_n.rhsNonContracting by decide)]
  rfl

/-- The product of a `32 × 256` by a `256 × 32` block into a zero accumulator, entry `(i, j)`: the sum over the
    contracted coordinate. -/
theorem mm3 (l : FVec Ideal S32x256 .f32) (r : FVec Ideal S256x32 .f32) (i : Fin 32) (j : Fin 32) :
    matmul dot_S32x256_S256x32_S32x32_1_0_0_1_n_n none l r (constant S32x32 .f32 0x00000000#32) (ix2 i j)
      = ∑ k : Fin 256, l (ix2 i k) * r (ix2 k j) := by
  refine (Ideal.matmul_constant_zero_apply dot_S32x256_S256x32_S32x32_1_0_0_1_n_n none l r (ix2 i j)).trans ?_
  rw [← Equiv.sum_comp (ValueIdx.contrEquiv1 dot_S32x256_S256x32_S32x32_1_0_0_1_n_n 256 rfl rfl).symm]
  refine Finset.sum_congr rfl fun k _ => ?_
  have hk := ValueIdx.contrEquiv1_symm_val dot_S32x256_S256x32_S32x32_1_0_0_1_n_n 256 rfl rfl k
  have el : dot_S32x256_S256x32_S32x32_1_0_0_1_n_n.lhsIdx (ix2 i j) ((ValueIdx.contrEquiv1 dot_S32x256_S256x32_S32x32_1_0_0_1_n_n 256 rfl rfl).symm k) = ix2 i k :=
    funext fun a => Fin.ext (by
      match a with
      | ⟨0, _⟩ => exact mm3_l0 _ _
      | ⟨1, _⟩ => exact (dot_S32x256_S256x32_S32x32_1_0_0_1_n_n.lhsIdx_val_of_single rfl _ _).trans hk)
  have er : dot_S32x256_S256x32_S32x32_1_0_0_1_n_n.rhsIdx (ix2 i j) ((ValueIdx.contrEquiv1 dot_S32x256_S256x32_S32x32_1_0_0_1_n_n 256 rfl rfl).symm k) = ix2 k j :=
    funext fun a => Fin.ext (by
      match a with
      | ⟨0, _⟩ => exact (dot_S32x256_S256x32_S32x32_1_0_0_1_n_n.rhsIdx_val_of_single rfl _ _).trans hk
      | ⟨1, _⟩ => exact mm3_r1 _ _)
  rw [el, er]

theorem castOut (v : Vec Ideal S32x32 .f32) (c c' : Fin 32) :
    shapeCast S1x32x32 v shapeCasts_S32x32_S1x32x32 (ix3 (0 : Fin 1) c c') = v (ix2 c c') :=
  shapeCast_apply v _ _ _ (by rw [Shape.rowMajor_val_three, Shape.rowMajor_val_two]; show c.val * 32 + c'.val = (0 * 32 + c.val) * 32 + c'.val; omega)

end Cert.KerOps
end
-- ==== Proof.PoolLaw.lean ====
/-
  The box average as two matrix products.

  Averaging a length-64 axis over its 16 boxes of 4 is the product with the 64 × 16 matrix
  `poolW w s = 1/4` if `w` lies in box `s` (that is `w / 4 = s`) and `0` otherwise. The mean over a 4 × 4 × 4 box is
  the mean over the 4 depth slices followed by that product along `w` and then along `h`.
  Also here: sums over `Fin 64`, `Fin 256` and over positions, written coordinate by coordinate.
-/
import proofs.«123074_j61263413510182_2_alg».proof.Proof.Spec

noncomputable section

namespace Cert.Spec

open BigOperators

/-- The averaging matrix of one axis. -/
def poolW (w : Fin 64) (s : Fin 16) : ℝ := if w.val / 4 = s.val then (1 / 4 : ℝ) else 0

/-- A coordinate of a long axis as (box, place in the box). -/
def blkEquiv : Fin 16 × Fin 4 ≃ Fin 64 where
  toFun p := blk p.1 p.2
  invFun w := (⟨w.val / 4, by omega⟩, ⟨w.val % 4, by omega⟩)
  left_inv p := by
    rcases p with ⟨s, k⟩
    refine Prod.ext (Fin.ext ?_) (Fin.ext ?_)
    · show (4 * s.val + k.val) / 4 = s.val
      omega
    · show (4 * s.val + k.val) % 4 = k.val
      omega
  right_inv w := by
    refine Fin.ext ?_
    show 4 * (w.val / 4) + w.val % 4 = w.val
    omega

/-- A sum over a long axis, box by box. -/
theorem sum_blk (F : Fin 64 → ℝ) : ∑ w : Fin 64, F w = ∑ s : Fin 16, ∑ k : Fin 4, F (blk s k) := by
  rw [← Equiv.sum_comp blkEquiv F, Fintype.sum_prod_type]
  rfl

theorem poolW_blk (s' : Fin 16) (k : Fin 4) (s : Fin 16) :
    poolW (blk s' k) s = if s' = s then (1 / 4 : ℝ) else 0 := by
  unfold poolW
  have h : (blk s' k).val / 4 = s'.val := by
    show (4 * s'.val + k.val) / 4 = s'.val
    omega
  rw [h]
  by_cases e : s' = s
  · rw [if_pos e, if_pos (congrArg Fin.val e)]
  · rw [if_neg e, if_neg (fun h' => e (Fin.ext h'))]

/-- The product with the averaging matrix is the box average. -/
theorem sum_poolW (f : Fin 64 → ℝ) (s : Fin 16) :
    ∑ w : Fin 64, f w * poolW w s = (∑ k : Fin 4, f (blk s k)) / 4 := by
  rw [sum_blk]
  simp_rw [poolW_blk, mul_ite, mul_zero]
  rw [Finset.sum_eq_single s]
  · simp only [if_true, Finset.sum_div]
    refine Finset.sum_congr rfl fun k _ => ?_
    ring
  · intro s' _ hne
    simp [hne]
  · intro h
    exact absurd (Finset.mem_univ s) h

/-- The box mean is the depth mean followed by the two products. -/
theorem pooled_eq_matmuls (x : Arr) (b : Fin 2) (c : Fin 32) (sd sh sw : Fin 16) :
    pooled x b c sd sh sw
      = ∑ h : Fin 64, (∑ w : Fin 64, ((∑ kd : Fin 4, x b c (blk sd kd) h w) / 4) * poolW w sw) * poolW h sh := by
  simp_rw [sum_poolW (fun w => (∑ kd : Fin 4, x b c (blk sd kd) _ w) / 4) sw]
  rw [sum_poolW (fun h => (∑ k : Fin 4, (∑ kd : Fin 4, x b c (blk sd kd) h (blk sw k)) / 4) / 4) sh]
  unfold pooled
  simp only [Fin.sum_univ_four]
  ring

/-- The product of two length-16 axes as one length-256 axis. -/
def pairEquiv : Fin 16 × Fin 16 ≃ Fin 256 where
  toFun p := ⟨16 * p.1.val + p.2.val, by omega⟩
  invFun k := (⟨k.val / 16, by omega⟩, ⟨k.val % 16, by omega⟩)
  left_inv p := by
    rcases p with ⟨a, b⟩
    refine Prod.ext (Fin.ext ?_) (Fin.ext ?_)
    · show (16 * a.val + b.val) / 16 = a.val
      omega
    · show (16 * a.val + b.val) % 16 = b.val
      omega
  right_inv k := by
    refine Fin.ext ?_
    show 16 * (k.val / 16) + k.val % 16 = k.val
    omega

/-- A sum over the flattened pair of axes. -/
theorem sum_fin256 (g : Fin 16 → Fin 16 → ℝ) :
    ∑ k : Fin 256, g ⟨k.val / 16, by omega⟩ ⟨k.val % 16, by omega⟩ = ∑ sh : Fin 16, ∑ sw : Fin 16, g sh sw := by
  rw [← Equiv.sum_comp pairEquiv (fun k : Fin 256 => g ⟨k.val / 16, by omega⟩ ⟨k.val % 16, by omega⟩),
    Fintype.sum_prod_type]
  refine Finset.sum_congr rfl fun a _ => Finset.sum_congr rfl fun b _ => ?_
  have h1 : (16 * a.val + b.val) / 16 = a.val := by omega
  have h2 : (16 * a.val + b.val) % 16 = b.val := by omega
  show g ⟨(16 * a.val + b.val) / 16, _⟩ ⟨(16 * a.val + b.val) % 16, _⟩ = g a b
  congr 1
  · exact Fin.ext h1
  · exact Fin.ext h2

/-- A sum over positions, coordinate by coordinate. -/
theorem sum_pos (f : Pos → ℝ) :
    ∑ p : Pos, f p = ∑ b : Fin 2, ∑ sd : Fin 16, ∑ sh : Fin 16, ∑ sw : Fin 16, f (b, sd, sh, sw) := by
  simp only [Fintype.sum_prod_type]

end Cert.Spec

end
-- ==== Proof.KerPayload.lean ====
/-
  The body's arithmetic over a real block, index by index: the depth mean and the two pooling products give the
  box means; the channel norm bounded below by the positive bound divides them; the products of the normalized
  32 × 256 matrices are finite sums of real products. Every intermediate value is a real number.
-/
import proofs.«123074_j61263413510182_2_alg».proof.Proof.KerOps
import proofs.«123074_j61263413510182_2_alg».proof.Proof.PoolLaw
import proofs.«123074_j61263413510182_2_alg».proof.Proof.Consts
import proofs.«123074_j61263413510182_2_alg».proof.Proof.Lift
import Idealize.ShloMosaic.Lib.Pipeline.Value
import Idealize.ShloMosaic.Lib.ValueIdx
import Idealize.ShloMosaic.PureOps.Ideal.Laws

set_option maxRecDepth 16384

noncomputable section

namespace Cert.KerPayload

open Idealize.ShloMosaic Idealize.ShloMosaic.TcCoe Idealize.ShloMosaic.Tactic Idealize.SL.Sem
open Cert.KernelIdeal Cert.KernelIdeal.Gen

variable [Cert.KernelIdeal.Facts]

open Idealize.ShloMosaic.ValueIdx Cert.KerOps Cert.Spec

/-! ## The body's values over real blocks

A block of an input at a grid point is a real array `xb c kd h w` (32 × 4 × 64 × 64). The body averages it over
the four depth slices, pools the width and then the height with the pooling matrix, takes the channel norm at each
of the 16 × 16 pooled places, normalizes, and multiplies the 32 × 256 matrix of normalized values by its own (or
the other input's) transpose. -/

/-- The pooled block: depth mean, then the two pooling products. -/
def poolB (xb : Fin 32 → Fin 4 → Fin 64 → Fin 64 → ℝ) (c : Fin 32) (sh sw : Fin 16) : ℝ :=
  ∑ h : Fin 64, (∑ w : Fin 64, ((∑ kd : Fin 4, xb c kd h w) / 4) * poolW w sw) * poolW h sh

/-- Sum of squares over the channels at a pooled place. -/
def sqB (a : Fin 32 → Fin 16 → Fin 16 → ℝ) (s t : Fin 16) : ℝ := ∑ c : Fin 32, a c s t * a c s t

theorem sqB_nonneg (a : Fin 32 → Fin 16 → Fin 16 → ℝ) (s t : Fin 16) : 0 ≤ sqB a s t :=
  Finset.sum_nonneg fun c _ => mul_self_nonneg _

/-- The bounded norm at a pooled place. -/
def nrmB (a : Fin 32 → Fin 16 → Fin 16 → ℝ) (s t : Fin 16) : ℝ := max (Real.sqrt (sqB a s t)) eps

theorem nrmB_pos (a : Fin 32 → Fin 16 → Fin 16 → ℝ) (s t : Fin 16) : 0 < nrmB a s t :=
  lt_of_lt_of_le eps_pos (le_max_right _ _)

/-- The normalized value. -/
def unitB (a : Fin 32 → Fin 16 → Fin 16 → ℝ) (c : Fin 32) (s t : Fin 16) : ℝ := a c s t / nrmB a s t

/-- Entry `(c, c')` of the product of two normalized `32 × 256` matrices, one transposed. -/
def prodB (u v : Fin 32 → Fin 16 → Fin 16 → ℝ) (c c' : Fin 32) : ℝ :=
  ∑ k : Fin 256, u c (colH k) (colW k) * v c' (colH k) (colW k)

theorem four_ne : (4 : ℝ) ≠ 0 := by norm_num

/-- The mean over the four depth slices. -/
theorem meanDepth (X : Vec Ideal S1x32x4x64x64 .f32) (xb : Fin 32 → Fin 4 → Fin 64 → Fin 64 → ℝ)
    (hX : ∀ (c : Fin 32) (kd : Fin 4) (h w : Fin 64), X (ix5 (0 : Fin 1) c kd h w) = ((xb c kd h w : ℝ) : EReal))
    (c : Fin 32) (h w : Fin 64) :
    divf (multiReduction .add [1] S32x64x64 (shapeCast S32x4x64x64 X shapeCasts_S1x32x4x64x64_S32x4x64x64) 0x00000000#32
        reduces_S32x4x64x64_S32x64x64 (.inl rfl) rfl)
      (broadcast S32x64x64 (FloatOps.ofBits (F := Ideal) .f32 0x40800000#32)) (ix3 c h w)
      = (((∑ kd : Fin 4, xb c kd h w) / 4 : ℝ) : EReal) := by
  rw [divf_apply, sumDepth, broadcast_apply,
    Finset.sum_congr rfl fun kd _ => (cast5to4 X c kd h w).trans (hX c kd h w),
    ← coe_sum, Ideal.ofBits_def, Cert.Consts.ofBits_4, Ideal.div_coe four_ne, ← EReal.coe_mul, mul_one_div]

/-- Pooling the width: the product with the pooling matrix. -/
theorem poolWidth (V : FVec Ideal S32x64x64 .f32) (f : Fin 32 → Fin 64 → Fin 64 → ℝ)
    (hV : ∀ (c : Fin 32) (h w : Fin 64), V (ix3 c h w) = ((f c h w : ℝ) : EReal))
    (Pm : FVec Ideal S64x16 .f32) (hP : ∀ (w : Fin 64) (s : Fin 16), Pm (ix2 w s) = ((poolW w s : ℝ) : EReal))
    (c : Fin 32) (h : Fin 64) (t : Fin 16) :
    shapeCast S32x64x16 (matmul dot_S2048x64_S64x16_S2048x16_1_0_0_1_n_n none
        (shapeCast S2048x64 V shapeCasts_S32x64x64_S2048x64) Pm (constant S2048x16 .f32 0x00000000#32))
      shapeCasts_S2048x16_S32x64x16 (ix3 c h t)
      = ((∑ w : Fin 64, f c h w * poolW w t : ℝ) : EReal) := by
  rw [cast2to3a, mm1,
    Finset.sum_congr rfl fun w _ => congrArg₂ (· * ·) ((cast3to2a V c h w).trans (hV c h w)) (hP w t),
    coe_sum]
  exact Finset.sum_congr rfl fun w _ => (EReal.coe_mul _ _).symm

/-- Pooling the height: transpose, then the product with the pooling matrix. -/
theorem poolHeight (V : FVec Ideal S32x64x16 .f32) (g : Fin 32 → Fin 64 → Fin 16 → ℝ)
    (hV : ∀ (c : Fin 32) (h : Fin 64) (t : Fin 16), V (ix3 c h t) = ((g c h t : ℝ) : EReal))
    (Pm : FVec Ideal S64x16 .f32) (hP : ∀ (w : Fin 64) (s : Fin 16), Pm (ix2 w s) = ((poolW w s : ℝ) : EReal))
    (c : Fin 32) (t s : Fin 16) :
    shapeCast S32x16x16 (matmul dot_S512x64_S64x16_S512x16_1_0_0_1_n_n none
        (shapeCast S512x64 (transpose S32x16x64 [0, 2, 1] V transposes_S32x64x16_p0_2_1_S32x16x64) shapeCasts_S32x16x64_S512x64)
        Pm (constant S512x16 .f32 0x00000000#32))
      shapeCasts_S512x16_S32x16x16 (ix3 c t s)
      = ((∑ h : Fin 64, g c h t * poolW h s : ℝ) : EReal) := by
  rw [cast2to3b, mm2,
    Finset.sum_congr rfl fun h _ => congrArg₂ (· * ·) (((cast3to2b _ c t h).trans (swap1 V c t h)).trans (hV c h t)) (hP h s),
    coe_sum]
  exact Finset.sum_congr rfl fun h _ => (EReal.coe_mul _ _).symm

theorem pay7_apply (Pm : FVec Ideal S64x16 .f32) (X : Vec Ideal S1x32x4x64x64 .f32)
    (xb : Fin 32 → Fin 4 → Fin 64 → Fin 64 → ℝ)
    (hP : ∀ (w : Fin 64) (s : Fin 16), Pm (ix2 w s) = ((poolW w s : ℝ) : EReal))
    (hX : ∀ (c : Fin 32) (kd : Fin 4) (h w : Fin 64), X (ix5 (0 : Fin 1) c kd h w) = ((xb c kd h w : ℝ) : EReal))
    (c : Fin 32) (s t : Fin 16) :
    k0_pay7 (F := Ideal) Pm X (ix3 c s t) = ((poolB xb c s t : ℝ) : EReal) := by
  unfold k0_pay7
  try dsimp only
  rw [swap2]
  exact poolHeight _ _ (fun c h t => poolWidth _ _ (fun c h w => meanDepth X xb hX c h w) Pm hP c h t) Pm hP c t s

theorem pay8_apply (Pm : FVec Ideal S64x16 .f32) (X : Vec Ideal S1x32x4x64x64 .f32)
    (xb : Fin 32 → Fin 4 → Fin 64 → Fin 64 → ℝ)
    (hP : ∀ (w : Fin 64) (s : Fin 16), Pm (ix2 w s) = ((poolW w s : ℝ) : EReal))
    (hX : ∀ (c : Fin 32) (kd : Fin 4) (h w : Fin 64), X (ix5 (0 : Fin 1) c kd h w) = ((xb c kd h w : ℝ) : EReal))
    (c : Fin 32) (s t : Fin 16) :
    k0_pay8 (F := Ideal) Pm X (ix3 c s t) = ((poolB xb c s t : ℝ) : EReal) := by
  unfold k0_pay8
  try dsimp only
  rw [swap2]
  exact poolHeight _ _ (fun c h t => poolWidth _ _ (fun c h w => meanDepth X xb hX c h w) Pm hP c h t) Pm hP c t s

theorem coe_max' (x y : ℝ) : ((max x y : ℝ) : EReal) = max (x : EReal) (y : EReal) :=
  EReal.coe_strictMono.monotone.map_max

/-- The channel norm at a pooled place. -/
theorem normAt (A : FVec Ideal S32x16x16 .f32) (a : Fin 32 → Fin 16 → Fin 16 → ℝ)
    (hA : ∀ (c : Fin 32) (s t : Fin 16), A (ix3 c s t) = ((a c s t : ℝ) : EReal)) (s t : Fin 16) :
    Idealize.ShloMosaic.sqrt (shapeCast S1x16x16 (multiReduction .add [0] S16x16 (mulf A A) 0x00000000#32
        reduces_S32x16x16_S16x16 (.inl rfl) rfl) shapeCasts_S16x16_S1x16x16) (ix3 (0 : Fin 1) s t)
      = ((Real.sqrt (sqB a s t) : ℝ) : EReal) := by
  unfold Idealize.ShloMosaic.sqrt
  rw [castUnit, sumChan,
    Finset.sum_congr rfl fun c _ => (mulf_apply A A (ix3 c s t)).trans ((congrArg₂ (· * ·) (hA c s t) (hA c s t)).trans (EReal.coe_mul _ _).symm),
    ← coe_sum, Ideal.sqrt_def, Ideal.sqrt_coe]
  exact if_neg (not_lt.mpr (sqB_nonneg a s t))

theorem pay9_apply (Pm : FVec Ideal S64x16 .f32) (X : Vec Ideal S1x32x4x64x64 .f32)
    (xb : Fin 32 → Fin 4 → Fin 64 → Fin 64 → ℝ)
    (hP : ∀ (w : Fin 64) (s : Fin 16), Pm (ix2 w s) = ((poolW w s : ℝ) : EReal))
    (hX : ∀ (c : Fin 32) (kd : Fin 4) (h w : Fin 64), X (ix5 (0 : Fin 1) c kd h w) = ((xb c kd h w : ℝ) : EReal))
    (s t : Fin 16) :
    k0_pay9 (F := Ideal) Pm X (ix3 (0 : Fin 1) s t) = ((Real.sqrt (sqB (poolB xb) s t) : ℝ) : EReal) := by
  unfold k0_pay9
  exact normAt _ _ (pay7_apply Pm X xb hP hX) s t

/-- Division by the bounded norm. -/
theorem divNorm (a n : ℝ) :
    Ideal.div (a : EReal) (max ((n : ℝ) : EReal) (FloatOps.ofBits (F := Ideal) .f32 0x322BCC77#32)) = ((a / max n eps : ℝ) : EReal) := by
  rw [Ideal.ofBits_def, Cert.Consts.ofBits_eps, ← coe_max',
    Ideal.div_coe (lt_of_lt_of_le eps_pos (le_max_right n eps)).ne', ← EReal.coe_mul, mul_one_div]

theorem pay10_apply (A : FVec Ideal S32x16x16 .f32) (N : FVec Ideal S1x16x16 .f32) (a : Fin 32 → Fin 16 → Fin 16 → ℝ)
    (hA : ∀ (c : Fin 32) (s t : Fin 16), A (ix3 c s t) = ((a c s t : ℝ) : EReal))
    (hN : ∀ (s t : Fin 16), N (ix3 (0 : Fin 1) s t) = ((Real.sqrt (sqB a s t) : ℝ) : EReal))
    (c : Fin 32) (k : Fin 256) :
    k0_pay10 (F := Ideal) A N (ix2 c k) = ((unitB a c (colH k) (colW k) : ℝ) : EReal) := by
  unfold k0_pay10
  try dsimp only
  rw [cast3to2c, divf_apply, hA, spread, maximumf_apply, hN, broadcast_apply]
  exact divNorm _ _

theorem pay11_apply (B : FVec Ideal S32x16x16 .f32) (b : Fin 32 → Fin 16 → Fin 16 → ℝ)
    (hB : ∀ (c : Fin 32) (s t : Fin 16), B (ix3 c s t) = ((b c s t : ℝ) : EReal))
    (c : Fin 32) (k : Fin 256) :
    k0_pay11 (F := Ideal) B (ix2 c k) = ((unitB b c (colH k) (colW k) : ℝ) : EReal) := by
  unfold k0_pay11
  try dsimp only
  rw [cast3to2c, divf_apply, hB, spread, maximumf_apply, normAt B b hB, broadcast_apply]
  exact divNorm _ _

/-- An accumulator plus the product of two normalized matrices, the second transposed. -/
theorem prodAt (Ul Ur : FVec Ideal S32x256 .f32) (u v : Fin 32 → Fin 16 → Fin 16 → ℝ)
    (hl : ∀ (c : Fin 32) (k : Fin 256), Ul (ix2 c k) = ((u c (colH k) (colW k) : ℝ) : EReal))
    (hr : ∀ (c : Fin 32) (k : Fin 256), Ur (ix2 c k) = ((v c (colH k) (colW k) : ℝ) : EReal))
    (acc : Vec Ideal S32x32 .f32) (c c' : Fin 32) :
    shapeCast S32x32 (addf acc (matmul dot_S32x256_S256x32_S32x32_1_0_0_1_n_n none Ul
        (transpose S256x32 [1, 0] Ur transposes_S32x256_p1_0_S256x32) (constant S32x32 .f32 0x00000000#32)))
      shapeCasts_S32x32_S32x32 (ix2 c c')
      = acc (ix2 c c') + ((prodB u v c c' : ℝ) : EReal) := by
  rw [shapeCast_self, addf_apply, mm3,
    Finset.sum_congr rfl fun k _ => (congrArg₂ (· * ·) (hl c k) ((swap3 Ur k c').trans (hr c' k))).trans (EReal.coe_mul _ _).symm,
    ← coe_sum]
  rfl

theorem pay12_apply (A : FVec Ideal S32x16x16 .f32) (N : FVec Ideal S1x16x16 .f32) (a : Fin 32 → Fin 16 → Fin 16 → ℝ)
    (hA : ∀ (c : Fin 32) (s t : Fin 16), A (ix3 c s t) = ((a c s t : ℝ) : EReal))
    (hN : ∀ (s t : Fin 16), N (ix3 (0 : Fin 1) s t) = ((Real.sqrt (sqB a s t) : ℝ) : EReal))
    (acc : Vec Ideal S32x32 .f32) (c c' : Fin 32) :
    k0_pay12 (F := Ideal) A N acc (ix2 c c') = acc (ix2 c c') + ((prodB (unitB a) (unitB a) c c' : ℝ) : EReal) := by
  unfold k0_pay12
  try dsimp only
  exact prodAt _ _ (unitB a) (unitB a) (pay10_apply A N a hA hN) (pay10_apply A N a hA hN) acc c c'

theorem pay13_apply (B : FVec Ideal S32x16x16 .f32) (b : Fin 32 → Fin 16 → Fin 16 → ℝ)
    (hB : ∀ (c : Fin 32) (s t : Fin 16), B (ix3 c s t) = ((b c s t : ℝ) : EReal))
    (acc : Vec Ideal S32x32 .f32) (c c' : Fin 32) :
    k0_pay13 (F := Ideal) B acc (ix2 c c') = acc (ix2 c c') + ((prodB (unitB b) (unitB b) c c' : ℝ) : EReal) := by
  unfold k0_pay13
  try dsimp only
  exact prodAt _ _ (unitB b) (unitB b) (pay11_apply B b hB) (pay11_apply B b hB) acc c c'

theorem pay14_apply (A B : FVec Ideal S32x16x16 .f32) (N : FVec Ideal S1x16x16 .f32) (a b : Fin 32 → Fin 16 → Fin 16 → ℝ)
    (hA : ∀ (c : Fin 32) (s t : Fin 16), A (ix3 c s t) = ((a c s t : ℝ) : EReal))
    (hB : ∀ (c : Fin 32) (s t : Fin 16), B (ix3 c s t) = ((b c s t : ℝ) : EReal))
    (hN : ∀ (s t : Fin 16), N (ix3 (0 : Fin 1) s t) = ((Real.sqrt (sqB a s t) : ℝ) : EReal))
    (acc : Vec Ideal S32x32 .f32) (c c' : Fin 32) :
    k0_pay14 (F := Ideal) A B N acc (ix2 c c') = acc (ix2 c c') + ((prodB (unitB a) (unitB b) c c' : ℝ) : EReal) := by
  unfold k0_pay14
  try dsimp only
  exact prodAt _ _ (unitB a) (unitB b) (pay10_apply A N a hA hN) (pay11_apply B b hB) acc c c'

/-- The zero blocks the first point of a batch stores. -/
theorem pay4_apply (c c' : Fin 32) : k0_pay4 (F := Ideal) (ix2 c c') = 0 := by
  unfold k0_pay4
  rw [shapeCast_self, broadcast_apply, Ideal.ofBits_def, Cert.Consts.ofBits_zero]
theorem pay5_apply (c c' : Fin 32) : k0_pay5 (F := Ideal) (ix2 c c') = 0 := by
  unfold k0_pay5
  rw [shapeCast_self, broadcast_apply, Ideal.ofBits_def, Cert.Consts.ofBits_zero]
theorem pay6_apply (c c' : Fin 32) : k0_pay6 (F := Ideal) (ix2 c c') = 0 := by
  unfold k0_pay6
  rw [shapeCast_self, broadcast_apply, Ideal.ofBits_def, Cert.Consts.ofBits_zero]

/-- The copies to the outputs at the last point of a batch. -/
theorem pay1_apply (v : Vec Ideal S32x32 .f32) (c c' : Fin 32) : k0_pay1 (F := Ideal) v (ix3 (0 : Fin 1) c c') = v (ix2 c c') := by
  unfold k0_pay1
  exact castOut v c c'
theorem pay2_apply (v : Vec Ideal S32x32 .f32) (c c' : Fin 32) : k0_pay2 (F := Ideal) v (ix3 (0 : Fin 1) c c') = v (ix2 c c') := by
  unfold k0_pay2
  exact castOut v c c'
theorem pay3_apply (v : Vec Ideal S32x32 .f32) (c c' : Fin 32) : k0_pay3 (F := Ideal) v (ix3 (0 : Fin 1) c c') = v (ix2 c c') := by
  unfold k0_pay3
  exact castOut v c c'

end Cert.KerPayload
end
-- ==== Proof.PoolConst.lean ====
/-
  The kernel's third operand is the averaging matrix.

  It is a dense 64 × 16 constant whose entry `(w, s)` is the pattern of `0.25` when `w` lies in box `s`
  (`w / 4 = s`) and the pattern of `+0.0` otherwise: as an extended real, `Spec.poolW w s`.
-/
import Idealize.ShloMosaic.Lib.ValueIdx
import proofs.«123074_j61263413510182_2_alg».proof.KernelIdeal
import proofs.«123074_j61263413510182_2_alg».proof.Proof.Consts
import proofs.«123074_j61263413510182_2_alg».proof.Proof.PoolLaw

namespace Cert.PoolConst

open Idealize.ShloMosaic Idealize.ShloMosaic.ValueIdx Cert.KernelIdeal

/-- The 1024 entries, row-major: entry `k` is at row `k / 16`, column `k % 16`. -/
theorem lit0_table : ∀ k : Fin 1024,
    lit0 k = if k.val / 16 / 4 = k.val % 16 then 0x3E800000#32 else 0x00000000#32 := by
  decide +kernel

/-- The entry at row `w`, column `s`. -/
theorem lit0_at (k : Fin 1024) (w : Fin 64) (s : Fin 16) (hk : k.val = w.val * 16 + s.val) :
    lit0 k = if w.val / 4 = s.val then 0x3E800000#32 else 0x00000000#32 := by
  refine (lit0_table k).trans ?_
  have hs := s.isLt
  have h1 : k.val / 16 / 4 = w.val / 4 := by omega
  have h2 : k.val % 16 = s.val := by omega
  rw [h1, h2]

/-- The constant at `(w, s)` denotes `poolW w s`. -/
theorem pool_const (w : Fin 64) (s : Fin 16) :
    (FloatOps.ofBits (F := Ideal) .f32 (lit0 (S64x16.rowMajor (ix2 w s))) : EReal)
      = ((Cert.Spec.poolW w s : ℝ) : EReal) := by
  have hv : (S64x16.rowMajor (ix2 w s)).val = w.val * 16 + s.val := by
    rw [Shape.rowMajor_val_two]; rfl
  have ht := lit0_at (S64x16.rowMajor (ix2 w s)) w s hv
  refine (congrArg (Ideal.ofBits .f32) ht).trans ?_
  unfold Cert.Spec.poolW
  by_cases e : w.val / 4 = s.val
  · rw [if_pos e, if_pos e]
    exact Cert.Consts.ofBits_quarter
  · rw [if_neg e, if_neg e, EReal.coe_zero]
    exact Cert.Consts.ofBits_zero

end Cert.PoolConst
-- ==== Proof.KerMath.lean ====
/-
  The per-grid-point real quantities and the specification's.

  At the grid point `(b, sd)` the kernel reads the four depth slices `blk sd kd` of batch entry `b` of each input
  (`xblk`), pools them to a 32 × 16 × 16 block (which is `pooled x b · sd · ·`), normalizes each of the 256 pooled
  places over the channels (giving `U x (b, sd, ·, ·) ·`), and adds the three 32 × 32 products of the normalized
  32 × 256 matrices (`term`) to running sums. Summed over the grid, the products are the channel-by-channel
  matrices `gram` of the specification.
-/
import proofs.«123074_j61263413510182_2_alg».proof.Proof.KerPayload
import proofs.«123074_j61263413510182_2_alg».proof.Proof.PoolLaw
import proofs.«123074_j61263413510182_2_alg».proof.Proof.GramLaw

noncomputable section

namespace Cert.KerMath

open BigOperators
open Cert.Spec Cert.KerPayload Cert.KerOps

/-- The block of `x` the grid point `(b, sd)` reads. -/
def xblk (x : Arr) (b : Fin 2) (sd : Fin 16) : Fin 32 → Fin 4 → Fin 64 → Fin 64 → ℝ :=
  fun c kd h w => x b c (blk sd kd) h w

/-- The normalized pooled block at the grid point `(b, sd)`. -/
def uB (x : Arr) (b : Fin 2) (sd : Fin 16) : Fin 32 → Fin 16 → Fin 16 → ℝ := unitB (poolB (xblk x b sd))

/-- The pooled block is the specification's box mean. -/
theorem poolB_xblk (x : Arr) (b : Fin 2) (sd : Fin 16) (c : Fin 32) (s t : Fin 16) :
    poolB (xblk x b sd) c s t = pooled x b c sd s t := by
  rw [pooled_eq_matmuls]
  rfl

/-- The normalized block is the specification's normalized value at the position `(b, sd, s, t)`. -/
theorem uB_eq (x : Arr) (b : Fin 2) (sd : Fin 16) (c : Fin 32) (s t : Fin 16) :
    uB x b sd c s t = U x (b, sd, s, t) c := by
  have hp : poolB (xblk x b sd) = fun c s t => pooled x b c sd s t := by
    funext c s t
    exact poolB_xblk x b sd c s t
  unfold uB
  rw [hp]
  rfl

/-- The product the grid point `(b, sd)` adds to entry `(c, c')`. -/
def term (x y : Arr) (b : Fin 2) (sd : Fin 16) (c c' : Fin 32) : ℝ := prodB (uB x b sd) (uB y b sd) c c'

/-- It is the sum over the 256 pooled places of the grid point. -/
theorem term_eq (x y : Arr) (b : Fin 2) (sd : Fin 16) (c c' : Fin 32) :
    term x y b sd c c' = ∑ sh : Fin 16, ∑ sw : Fin 16, U x (b, sd, sh, sw) c * U y (b, sd, sh, sw) c' := by
  unfold term prodB
  simp only [uB_eq]
  exact sum_fin256 (fun sh sw => U x (b, sd, sh, sw) c * U y (b, sd, sh, sw) c')

/-- The channel-by-channel matrix is the sum of the grid points' products. -/
theorem gram_eq (x y : Arr) (c c' : Fin 32) :
    gram x y c c' = ∑ b : Fin 2, ∑ sd : Fin 16, term x y b sd c c' := by
  unfold gram
  rw [sum_pos]
  exact Finset.sum_congr rfl fun b _ => Finset.sum_congr rfl fun sd _ => (term_eq x y b sd c c').symm

/-- The specification's second form through the grid points' products. -/
theorem kerLoss_eq (x y : Arr) :
    kerLoss x y
      = ((∑ c : Fin 32, ∑ c' : Fin 32, (∑ b : Fin 2, ∑ sd : Fin 16, term x x b sd c c') * (∑ b : Fin 2, ∑ sd : Fin 16, term x x b sd c c'))
        + (∑ c : Fin 32, ∑ c' : Fin 32, (∑ b : Fin 2, ∑ sd : Fin 16, term y y b sd c c') * (∑ b : Fin 2, ∑ sd : Fin 16, term y y b sd c c'))
        - 2 * (∑ c : Fin 32, ∑ c' : Fin 32, (∑ b : Fin 2, ∑ sd : Fin 16, term x y b sd c c') * (∑ b : Fin 2, ∑ sd : Fin 16, term x y b sd c c'))) / 67108864 := by
  unfold kerLoss
  simp only [gram_eq]

/-- A running sum over the 16 steps of an axis: the value after step `k`. -/
def accN (f : Fin 16 → ℝ) : ℕ → ℝ
  | 0 => f 0
  | (k + 1) => accN f k + (if h : k + 1 < 16 then f ⟨k + 1, h⟩ else 0)

/-- The first step. -/
theorem accN_zero (f : Fin 16 → ℝ) : accN f 0 = f 0 := rfl

/-- A later step adds that step's term. -/
theorem accN_succ (f : Fin 16 → ℝ) (k : ℕ) (h : k + 1 < 16) : accN f (k + 1) = accN f k + f ⟨k + 1, h⟩ := by
  rw [accN, dif_pos h]

theorem accN_eq (f : Fin 16 → ℝ) (k : ℕ) :
    accN f k = ∑ j ∈ Finset.range (k + 1), (if h : j < 16 then f ⟨j, h⟩ else 0) := by
  induction k with
  | zero => simp [accN]
  | succ k ih => rw [accN, ih, Finset.sum_range_succ _ (k + 1)]

/-- After the last step the running sum is the whole sum. -/
theorem accN_last (f : Fin 16 → ℝ) : accN f 15 = ∑ sd : Fin 16, f sd := by
  rw [accN_eq]
  show ∑ j ∈ Finset.range 16, (if h : j < 16 then f ⟨j, h⟩ else 0) = _
  rw [Finset.sum_range]
  exact Finset.sum_congr rfl fun i _ => dif_pos i.isLt

end Cert.KerMath

end
-- ==== Proof.KerAccum.lean ====
/-
  The grid accumulation. Grid point `n` works on batch `n / 16` and depth slab `n % 16`. By induction on the grid
  point, after point `n` each carried accumulator holds the sum over the slabs `0 … n % 16` of the batch of the
  slabs' channel-by-channel products; at the last slab of a batch the output blocks receive the whole batch's sums.
-/
import proofs.«123074_j61263413510182_2_alg».proof.Proof.Gen.KernelIdeal.Frame
import proofs.«123074_j61263413510182_2_alg».proof.Proof.KerPieces
import proofs.«123074_j61263413510182_2_alg».proof.Proof.KerPayload
import proofs.«123074_j61263413510182_2_alg».proof.Proof.PoolConst
import proofs.«123074_j61263413510182_2_alg».proof.Proof.KerMath
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KerAccum

open Idealize.ShloMosaic Idealize.ShloMosaic.TcCoe Idealize.ShloMosaic.Tactic Idealize.SL.Sem
open Cert.KernelIdeal Cert.KernelIdeal.Gen

open Idealize.ShloMosaic.ValueIdx Idealize.ShloMosaic.StableHlo Cert.KerOps Cert.KerPayload Cert.KerPieces Cert.KerMath Cert.Spec
open Idealize.ShloMosaic.Pipeline (Dat)

variable (m : (ℓ : Loc nD τ sig) → Buf (Elt Ideal) ℓ)

/-! ## The blocks the body reads at a grid point

Grid point `t` is batch `t / 16`, depth slab `t % 16`: the two input windows hand the body the 32 × 4 × 64 × 64 slab
of their arrays there, and the third window the whole pooling matrix. -/

theorem idx0 : ∀ t : Fin cfg0.N, win0_0.index t 0 = t.val / 16 ∧ win0_0.index t 1 = 0 ∧ win0_0.index t 2 = t.val % 16
    ∧ win0_0.index t 3 = 0 ∧ win0_0.index t 4 = 0 :=
  (by decide +kernel : ∀ t : Fin grid0.N, _)

theorem idx1 : ∀ t : Fin cfg0.N, win0_1.index t 0 = t.val / 16 ∧ win0_1.index t 1 = 0 ∧ win0_1.index t 2 = t.val % 16
    ∧ win0_1.index t 3 = 0 ∧ win0_1.index t 4 = 0 :=
  (by decide +kernel : ∀ t : Fin grid0.N, _)

theorem idx2 : ∀ t : Fin cfg0.N, win0_2.index t 0 = 0 ∧ win0_2.index t 1 = 0 :=
  (by decide +kernel : ∀ t : Fin grid0.N, _)

/-- The batch of a grid point. -/
def bOf (n : ℕ) (h : n < cfg0.N) : Fin 2 := ⟨n / 16, by have hN : cfg0.N = 32 := N_0; omega⟩
/-- The depth slab of a grid point. -/
def sOf (n : ℕ) : Fin 16 := ⟨n % 16, Nat.mod_lt _ (by norm_num)⟩

theorem iblk0_apply (c : Dev nD) (t : Fin cfg0.N) (ch : Fin 32) (kd : Fin 4) (h w : Fin 64) :
    (iblk m c 0 t : Vec Ideal S1x32x4x64x64 .f32) (ix5 (0 : Fin 1) ch kd h w)
      = m ((c : Thread nD τ).loc main_arg0) (ix5 (bOf t.val t.isLt) ch (blk (sOf t.val) kd) h w) := by
  unfold iblk
  rw [View.read_apply]
  show V m c main_arg0 _ = _
  rw [V_main_arg0]
  refine congrArg _ ?_
  funext a
  apply Fin.ext
  obtain ⟨h0, h1, h2, h3, h4⟩ := idx0 t
  match a with
  | ⟨0, _⟩ => show win0_0.index t 0 * 1 + 1 * 0 = t.val / 16; rw [h0]; omega
  | ⟨1, _⟩ => show win0_0.index t 1 * 32 + 1 * ch.val = ch.val; rw [h1]; omega
  | ⟨2, _⟩ => show win0_0.index t 2 * 4 + 1 * kd.val = 4 * (t.val % 16) + kd.val; rw [h2]; omega
  | ⟨3, _⟩ => show win0_0.index t 3 * 64 + 1 * h.val = h.val; rw [h3]; omega
  | ⟨4, _⟩ => show win0_0.index t 4 * 64 + 1 * w.val = w.val; rw [h4]; omega

theorem iblk1_apply (c : Dev nD) (t : Fin cfg0.N) (ch : Fin 32) (kd : Fin 4) (h w : Fin 64) :
    (iblk m c 1 t : Vec Ideal S1x32x4x64x64 .f32) (ix5 (0 : Fin 1) ch kd h w)
      = m ((c : Thread nD τ).loc main_arg1) (ix5 (bOf t.val t.isLt) ch (blk (sOf t.val) kd) h w) := by
  unfold iblk
  rw [View.read_apply]
  show V m c main_arg1 _ = _
  rw [V_main_arg1]
  refine congrArg _ ?_
  funext a
  apply Fin.ext
  obtain ⟨h0, h1, h2, h3, h4⟩ := idx1 t
  match a with
  | ⟨0, _⟩ => show win0_1.index t 0 * 1 + 1 * 0 = t.val / 16; rw [h0]; omega
  | ⟨1, _⟩ => show win0_1.index t 1 * 32 + 1 * ch.val = ch.val; rw [h1]; omega
  | ⟨2, _⟩ => show win0_1.index t 2 * 4 + 1 * kd.val = 4 * (t.val % 16) + kd.val; rw [h2]; omega
  | ⟨3, _⟩ => show win0_1.index t 3 * 64 + 1 * h.val = h.val; rw [h3]; omega
  | ⟨4, _⟩ => show win0_1.index t 4 * 64 + 1 * w.val = w.val; rw [h4]; omega

/-- The pooling matrix as the kernel call finds it: the dense constant the host line before the call wrote. -/
theorem V_cst (c : Dev nD) :
    (V m c main_cst : S64x16.Idx → EReal) = fun i => FloatOps.ofBits (F := Ideal) .f32 (lit0 (S64x16.rowMajor i)) := by
  show StableHlo.after hostOps0 (fun b => m (c, b)) (Proc.devRef .tc main_cst) = _
  after_results
  rfl

theorem iblk2_apply (c : Dev nD) (t : Fin cfg0.N) (w : Fin 64) (s : Fin 16) :
    (iblk m c 2 t : Vec Ideal S64x16 .f32) (ix2 w s) = ((poolW w s : ℝ) : EReal) := by
  unfold iblk
  rw [View.read_apply]
  show V m c main_cst _ = _
  rw [V_cst]
  refine Eq.trans (congrArg (fun i => FloatOps.ofBits (F := Ideal) .f32 (lit0 (S64x16.rowMajor i))) ?_) (Cert.PoolConst.pool_const w s)
  funext a
  apply Fin.ext
  obtain ⟨h0, h1⟩ := idx2 t
  match a with
  | ⟨0, _⟩ => show win0_2.index t 0 * 64 + 1 * w.val = w.val; rw [h0]; omega
  | ⟨1, _⟩ => show win0_2.index t 1 * 16 + 1 * s.val = s.val; rw [h1]; omega

/-! ## The three products a grid point adds

Under finite inputs a slab is a real array, so the point's three channel-by-channel products are real, and the
body leaves each accumulator at its previous contents plus the point's product. -/

section Finite

variable (c : Dev nD)
variable (hX0 : Finite (m ((c : Thread nD τ).loc main_arg0))) (hX1 : Finite (m ((c : Thread nD τ).loc main_arg1)))
include hX0 hX1

theorem hblk0 (t : Fin cfg0.N) (ch : Fin 32) (kd : Fin 4) (h w : Fin 64) :
    (iblk m c 0 t : Vec Ideal S1x32x4x64x64 .f32) (ix5 (0 : Fin 1) ch kd h w)
      = ((xblk (toArr (m ((c : Thread nD τ).loc main_arg0))) (bOf t.val t.isLt) (sOf t.val) ch kd h w : ℝ) : EReal) :=
  (iblk0_apply m c t ch kd h w).trans (coe_toArr hX0 _ _ _ _ _)

theorem hblk1 (t : Fin cfg0.N) (ch : Fin 32) (kd : Fin 4) (h w : Fin 64) :
    (iblk m c 1 t : Vec Ideal S1x32x4x64x64 .f32) (ix5 (0 : Fin 1) ch kd h w)
      = ((xblk (toArr (m ((c : Thread nD τ).loc main_arg1))) (bOf t.val t.isLt) (sOf t.val) ch kd h w : ℝ) : EReal) :=
  (iblk1_apply m c t ch kd h w).trans (coe_toArr hX1 _ _ _ _ _)

theorem point_aa (t : Fin cfg0.N) (acc : Vec Ideal S32x32 .f32) (c1 c2 : Fin 32) :
    k0_pay12 (F := Ideal) (k0_pay7 (iblk m c 2 t) (iblk m c 0 t)) (k0_pay9 (iblk m c 2 t) (iblk m c 0 t)) acc (ix2 c1 c2)
      = acc (ix2 c1 c2) + ((term (toArr (m ((c : Thread nD τ).loc main_arg0))) (toArr (m ((c : Thread nD τ).loc main_arg0)))
          (bOf t.val t.isLt) (sOf t.val) c1 c2 : ℝ) : EReal) :=
  pay12_apply (k0_pay7 (iblk m c 2 t) (iblk m c 0 t)) (k0_pay9 (iblk m c 2 t) (iblk m c 0 t))
    (poolB (xblk (toArr (m ((c : Thread nD τ).loc main_arg0))) (bOf t.val t.isLt) (sOf t.val)))
    (fun ch s t' => pay7_apply (iblk m c 2 t) (iblk m c 0 t) _ (iblk2_apply m c t) (hblk0 m c hX0 hX1 t) ch s t')
    (fun s t' => pay9_apply (iblk m c 2 t) (iblk m c 0 t) _ (iblk2_apply m c t) (hblk0 m c hX0 hX1 t) s t') acc c1 c2

theorem point_bb (t : Fin cfg0.N) (acc : Vec Ideal S32x32 .f32) (c1 c2 : Fin 32) :
    k0_pay13 (F := Ideal) (k0_pay8 (iblk m c 2 t) (iblk m c 1 t)) acc (ix2 c1 c2)
      = acc (ix2 c1 c2) + ((term (toArr (m ((c : Thread nD τ).loc main_arg1))) (toArr (m ((c : Thread nD τ).loc main_arg1)))
          (bOf t.val t.isLt) (sOf t.val) c1 c2 : ℝ) : EReal) :=
  pay13_apply (k0_pay8 (iblk m c 2 t) (iblk m c 1 t))
    (poolB (xblk (toArr (m ((c : Thread nD τ).loc main_arg1))) (bOf t.val t.isLt) (sOf t.val)))
    (fun ch s t' => pay8_apply (iblk m c 2 t) (iblk m c 1 t) _ (iblk2_apply m c t) (hblk1 m c hX0 hX1 t) ch s t') acc c1 c2

theorem point_ab (t : Fin cfg0.N) (acc : Vec Ideal S32x32 .f32) (c1 c2 : Fin 32) :
    k0_pay14 (F := Ideal) (k0_pay7 (iblk m c 2 t) (iblk m c 0 t)) (k0_pay8 (iblk m c 2 t) (iblk m c 1 t))
        (k0_pay9 (iblk m c 2 t) (iblk m c 0 t)) acc (ix2 c1 c2)
      = acc (ix2 c1 c2) + ((term (toArr (m ((c : Thread nD τ).loc main_arg0))) (toArr (m ((c : Thread nD τ).loc main_arg1)))
          (bOf t.val t.isLt) (sOf t.val) c1 c2 : ℝ) : EReal) :=
  pay14_apply (k0_pay7 (iblk m c 2 t) (iblk m c 0 t)) (k0_pay8 (iblk m c 2 t) (iblk m c 1 t)) (k0_pay9 (iblk m c 2 t) (iblk m c 0 t))
    (poolB (xblk (toArr (m ((c : Thread nD τ).loc main_arg0))) (bOf t.val t.isLt) (sOf t.val)))
    (poolB (xblk (toArr (m ((c : Thread nD τ).loc main_arg1))) (bOf t.val t.isLt) (sOf t.val)))
    (fun ch s t' => pay7_apply (iblk m c 2 t) (iblk m c 0 t) _ (iblk2_apply m c t) (hblk0 m c hX0 hX1 t) ch s t')
    (fun ch s t' => pay8_apply (iblk m c 2 t) (iblk m c 1 t) _ (iblk2_apply m c t) (hblk1 m c hX0 hX1 t) ch s t')
    (fun s t' => pay9_apply (iblk m c 2 t) (iblk m c 0 t) _ (iblk2_apply m c t) (hblk0 m c hX0 hX1 t) s t') acc c1 c2

end Finite

/-! ## The accumulators after each grid point

After grid point `n` each accumulator holds the sum of the products of the points of `n`'s batch so far. -/

/-- The sum of the products of the depth slabs `0 … n % 16` of the batch of grid point `n`. -/
def run (x y : Arr) (n : ℕ) (h : n < cfg0.N) (c1 c2 : Fin 32) : ℝ :=
  accN (fun sd => term x y (bOf n h) sd c1 c2) (n % 16)

theorem run_first (x y : Arr) (n : ℕ) (h : n < cfg0.N) (h0 : n % 16 = 0) (c1 c2 : Fin 32) :
    run x y n h c1 c2 = term x y (bOf n h) (sOf n) c1 c2 := by
  have e : sOf n = 0 := Fin.ext h0
  unfold run
  rw [e, h0, accN_zero]

theorem run_next (x y : Arr) (n : ℕ) (h : n + 1 < cfg0.N) (h0 : ¬(n + 1) % 16 = 0) (c1 c2 : Fin 32) :
    run x y (n + 1) h c1 c2 = run x y n (Nat.lt_of_succ_lt h) c1 c2 + term x y (bOf (n + 1) h) (sOf (n + 1)) c1 c2 := by
  have hk : (n + 1) % 16 = n % 16 + 1 := by omega
  have hlt : n % 16 + 1 < 16 := by omega
  have eb : bOf n (Nat.lt_of_succ_lt h) = bOf (n + 1) h := Fin.ext (by show n / 16 = (n + 1) / 16; omega)
  have es : sOf (n + 1) = ⟨n % 16 + 1, hlt⟩ := Fin.ext hk
  unfold run
  rw [hk, accN_succ _ _ hlt, eb, es]

theorem run_prev (x y : Arr) (n : ℕ) (h : n < cfg0.N) (h0 : ¬n % 16 = 0) (c1 c2 : Fin 32) :
    run x y n h c1 c2 = run x y (n - 1) (Nat.lt_of_le_of_lt (Nat.sub_le _ _) h) c1 c2 + term x y (bOf n h) (sOf n) c1 c2 := by
  obtain ⟨k, rfl⟩ : ∃ k, n = k + 1 := ⟨n - 1, by omega⟩
  exact run_next x y k h h0 c1 c2

section Inv

variable (c : Dev nD)
variable (hX0 : Finite (m ((c : Thread nD τ).loc main_arg0))) (hX1 : Finite (m ((c : Thread nD τ).loc main_arg1)))
include hX0 hX1

/-- The first point of a batch: the accumulators are zeroed, then receive the point's products. -/
theorem stepA (t : Fin cfg0.N) (h0 : t.val % 16 = 0) (c1 c2 : Fin 32) :
    (outsAt0 m c t.val t.isLt).2.2.2.1 (ix2 c1 c2) = ((run (toArr (m ((c : Thread nD τ).loc main_arg0))) (toArr (m ((c : Thread nD τ).loc main_arg0))) t.val t.isLt c1 c2 : ℝ) : EReal)
    ∧ (outsAt0 m c t.val t.isLt).2.2.2.2.1 (ix2 c1 c2) = ((run (toArr (m ((c : Thread nD τ).loc main_arg1))) (toArr (m ((c : Thread nD τ).loc main_arg1))) t.val t.isLt c1 c2 : ℝ) : EReal)
    ∧ (outsAt0 m c t.val t.isLt).2.2.2.2.2 (ix2 c1 c2) = ((run (toArr (m ((c : Thread nD τ).loc main_arg0))) (toArr (m ((c : Thread nD τ).loc main_arg1))) t.val t.isLt c1 c2 : ℝ) : EReal) := by
  have h1 : ¬t.val % 16 = 15 := by omega
  rw [outsAt0_A m c t h0 h1]
  dsimp only
  refine ⟨?_, ?_, ?_⟩
  · refine (congrFun (sA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 c1 c2)).trans ?_
    refine (point_aa m c hX0 hX1 t _ c1 c2).trans ?_
    rw [pay4_apply, zero_add, run_first _ _ _ _ h0]
  · refine (congrFun (sA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 c1 c2)).trans ?_
    refine (point_bb m c hX0 hX1 t _ c1 c2).trans ?_
    rw [pay5_apply, zero_add, run_first _ _ _ _ h0]
  · refine (congrFun (sA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) (ix2 c1 c2)).trans ?_
    refine (point_ab m c hX0 hX1 t _ c1 c2).trans ?_
    rw [pay6_apply, zero_add, run_first _ _ _ _ h0]

/-- A later point of a batch: the products are added to what the point before left. -/
theorem stepBC (t : Fin cfg0.N) (h0 : ¬t.val % 16 = 0)
    (hp : ∀ c1 c2 : Fin 32, (outsAt0 m c (t.val - 1) (Nat.lt_of_le_of_lt (Nat.sub_le _ _) t.isLt)).2.2.2.1 (ix2 c1 c2) = ((run (toArr (m ((c : Thread nD τ).loc main_arg0))) (toArr (m ((c : Thread nD τ).loc main_arg0))) (t.val - 1) (Nat.lt_of_le_of_lt (Nat.sub_le _ _) t.isLt) c1 c2 : ℝ) : EReal)
    ∧ (outsAt0 m c (t.val - 1) (Nat.lt_of_le_of_lt (Nat.sub_le _ _) t.isLt)).2.2.2.2.1 (ix2 c1 c2) = ((run (toArr (m ((c : Thread nD τ).loc main_arg1))) (toArr (m ((c : Thread nD τ).loc main_arg1))) (t.val - 1) (Nat.lt_of_le_of_lt (Nat.sub_le _ _) t.isLt) c1 c2 : ℝ) : EReal)
    ∧ (outsAt0 m c (t.val - 1) (Nat.lt_of_le_of_lt (Nat.sub_le _ _) t.isLt)).2.2.2.2.2 (ix2 c1 c2) = ((run (toArr (m ((c : Thread nD τ).loc main_arg0))) (toArr (m ((c : Thread nD τ).loc main_arg1))) (t.val - 1) (Nat.lt_of_le_of_lt (Nat.sub_le _ _) t.isLt) c1 c2 : ℝ) : EReal))
    (c1 c2 : Fin 32) :
    (outsAt0 m c t.val t.isLt).2.2.2.1 (ix2 c1 c2) = ((run (toArr (m ((c : Thread nD τ).loc main_arg0))) (toArr (m ((c : Thread nD τ).loc main_arg0))) t.val t.isLt c1 c2 : ℝ) : EReal)
    ∧ (outsAt0 m c t.val t.isLt).2.2.2.2.1 (ix2 c1 c2) = ((run (toArr (m ((c : Thread nD τ).loc main_arg1))) (toArr (m ((c : Thread nD τ).loc main_arg1))) t.val t.isLt c1 c2 : ℝ) : EReal)
    ∧ (outsAt0 m c t.val t.isLt).2.2.2.2.2 (ix2 c1 c2) = ((run (toArr (m ((c : Thread nD τ).loc main_arg0))) (toArr (m ((c : Thread nD τ).loc main_arg1))) t.val t.isLt c1 c2 : ℝ) : EReal) := by
  by_cases h1 : t.val % 16 = 15
  ·
    rw [outsAt0_C m c t h0 h1]
    dsimp only
    refine ⟨?_, ?_, ?_⟩
    · refine (congrFun (sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_aa m c hX0 hX1 t _ c1 c2).trans ?_
      rw [(hp c1 c2).1, ← EReal.coe_add, run_prev _ _ _ _ h0]
    · refine (congrFun (sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_bb m c hX0 hX1 t _ c1 c2).trans ?_
      rw [(hp c1 c2).2.1, ← EReal.coe_add, run_prev _ _ _ _ h0]
    · refine (congrFun (sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_ab m c hX0 hX1 t _ c1 c2).trans ?_
      rw [(hp c1 c2).2.2, ← EReal.coe_add, run_prev _ _ _ _ h0]
  ·
    rw [outsAt0_B m c t h0 h1]
    dsimp only
    refine ⟨?_, ?_, ?_⟩
    · refine (congrFun (sB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_aa m c hX0 hX1 t _ c1 c2).trans ?_
      rw [(hp c1 c2).1, ← EReal.coe_add, run_prev _ _ _ _ h0]
    · refine (congrFun (sB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_bb m c hX0 hX1 t _ c1 c2).trans ?_
      rw [(hp c1 c2).2.1, ← EReal.coe_add, run_prev _ _ _ _ h0]
    · refine (congrFun (sB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).trans ?_
      refine (point_ab m c hX0 hX1 t _ c1 c2).trans ?_
      rw [(hp c1 c2).2.2, ← EReal.coe_add, run_prev _ _ _ _ h0]

theorem acc_inv : ∀ (n : ℕ) (h : n < cfg0.N) (c1 c2 : Fin 32),
    (outsAt0 m c n h).2.2.2.1 (ix2 c1 c2) = ((run (toArr (m ((c : Thread nD τ).loc main_arg0))) (toArr (m ((c : Thread nD τ).loc main_arg0))) n h c1 c2 : ℝ) : EReal)
    ∧ (outsAt0 m c n h).2.2.2.2.1 (ix2 c1 c2) = ((run (toArr (m ((c : Thread nD τ).loc main_arg1))) (toArr (m ((c : Thread nD τ).loc main_arg1))) n h c1 c2 : ℝ) : EReal)
    ∧ (outsAt0 m c n h).2.2.2.2.2 (ix2 c1 c2) = ((run (toArr (m ((c : Thread nD τ).loc main_arg0))) (toArr (m ((c : Thread nD τ).loc main_arg1))) n h c1 c2 : ℝ) : EReal) := by
  intro n
  induction n with
  | zero =>
    intro h c1 c2
    exact stepA m c hX0 hX1 ⟨0, h⟩ rfl c1 c2
  | succ n ih =>
    intro h c1 c2
    by_cases h0 : (n + 1) % 16 = 0
    · exact stepA m c hX0 hX1 ⟨n + 1, h⟩ h0 c1 c2
    · exact stepBC m c hX0 hX1 ⟨n + 1, h⟩ h0 (fun c1 c2 => ih _ c1 c2) c1 c2

end Inv

section Last

variable (c : Dev nD)
variable (hX0 : Finite (m ((c : Thread nD τ).loc main_arg0))) (hX1 : Finite (m ((c : Thread nD τ).loc main_arg1)))
include hX0 hX1

/-- At the last point of a batch the running sums are the whole batch's. -/
theorem run_last (x y : Arr) (n : ℕ) (h : n < cfg0.N) (h1 : n % 16 = 15) (c1 c2 : Fin 32) :
    run x y n h c1 c2 = ∑ sd : Fin 16, term x y (bOf n h) sd c1 c2 := by
  unfold run
  rw [h1]
  exact accN_last _

/-- The last point of a batch copies the three accumulators to the outputs' blocks. -/
theorem out_last (t : Fin cfg0.N) (h1 : t.val % 16 = 15) (c1 c2 : Fin 32) :
    (outsAt0 m c t.val t.isLt).1 (ix3 (0 : Fin 1) c1 c2)
        = ((∑ sd : Fin 16, term (toArr (m ((c : Thread nD τ).loc main_arg0))) (toArr (m ((c : Thread nD τ).loc main_arg0))) (bOf t.val t.isLt) sd c1 c2 : ℝ) : EReal)
    ∧ (outsAt0 m c t.val t.isLt).2.1 (ix3 (0 : Fin 1) c1 c2)
        = ((∑ sd : Fin 16, term (toArr (m ((c : Thread nD τ).loc main_arg1))) (toArr (m ((c : Thread nD τ).loc main_arg1))) (bOf t.val t.isLt) sd c1 c2 : ℝ) : EReal)
    ∧ (outsAt0 m c t.val t.isLt).2.2.1 (ix3 (0 : Fin 1) c1 c2)
        = ((∑ sd : Fin 16, term (toArr (m ((c : Thread nD τ).loc main_arg0))) (toArr (m ((c : Thread nD τ).loc main_arg1))) (bOf t.val t.isLt) sd c1 c2 : ℝ) : EReal) := by
  have h0 : ¬t.val % 16 = 0 := by omega
  have inv := acc_inv m c hX0 hX1 t.val t.isLt c1 c2
  rw [← run_last m c hX0 hX1 _ _ _ _ h1, ← run_last m c hX0 hX1 _ _ _ _ h1, ← run_last m c hX0 hX1 _ _ _ _ h1]
  rw [outsAt0_C m c t h0 h1] at inv ⊢
  dsimp only at inv ⊢
  refine ⟨?_, ?_, ?_⟩
  · refine (congrFun (oC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 (0 : Fin 1) c1 c2)).trans ?_
    refine (pay1_apply _ c1 c2).trans ?_
    exact (congrFun (sC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).symm.trans inv.1
  · refine (congrFun (oC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 (0 : Fin 1) c1 c2)).trans ?_
    refine (pay2_apply _ c1 c2).trans ?_
    exact (congrFun (sC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).symm.trans inv.2.1
  · refine (congrFun (oC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix3 (0 : Fin 1) c1 c2)).trans ?_
    refine (pay3_apply _ c1 c2).trans ?_
    exact (congrFun (sC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 c1 c2)).symm.trans inv.2.2

end Last

end Cert.KerAccum
end
-- ==== Proof.KerTail.lean ====
/-
  The host operations after the kernel call.

  From the three 2 × 32 × 32 outputs `g0 g1 g2` (one 32 × 32 block per batch entry) the program sums each over the
  batch axis, takes the sum of the squares of the 1024 entries of each sum, and returns
  `(q0 + q1 - 2 * q2) / 2^26`. When the entries of the `g`s are reals, so is the result, and it is that
  expression over the reals.
-/
import Idealize.ShloMosaic.Lib.ValueIdx
import Idealize.ShloMosaic.Lib.IdealHost
import Idealize.ShloMosaic.PureOps.Ideal.Laws
import proofs.«123074_j61263413510182_2_alg».proof.KernelIdeal
import proofs.«123074_j61263413510182_2_alg».proof.Proof.Consts
import proofs.«123074_j61263413510182_2_alg».proof.Proof.Lift

noncomputable section

namespace Cert.KerTail

open Idealize.ShloMosaic Idealize.ShloMosaic.ValueIdx Cert.KernelIdeal

variable [Cert.KernelIdeal.Facts]
open Cert.KernelIdeal.Facts₀ Cert.KernelIdeal.Facts

/-- The program's last operations, as one term over the kernel's three outputs. -/
def tail (g0 g1 g2 : Vec Ideal S2x32x32 .f32) : Vec Ideal S_ .f32 :=
  Host.divf (F := Ideal)
    (subf
      (addf
        ((fun x v => Host.reduceAdd (F := Ideal) x v reducesTo_S32x32_S_d0_1 h_S_)
          (mulf
            ((fun x v => Host.reduceAdd (F := Ideal) x v reducesTo_S2x32x32_S32x32_d0 h_S_) g0 (constant (F := Ideal) S_ .f32 0x00000000#32))
            ((fun x v => Host.reduceAdd (F := Ideal) x v reducesTo_S2x32x32_S32x32_d0 h_S_) g0 (constant (F := Ideal) S_ .f32 0x00000000#32)))
          (constant (F := Ideal) S_ .f32 0x00000000#32))
        ((fun x v => Host.reduceAdd (F := Ideal) x v reducesTo_S32x32_S_d0_1 h_S_)
          (mulf
            ((fun x v => Host.reduceAdd (F := Ideal) x v reducesTo_S2x32x32_S32x32_d0 h_S_) g1 (constant (F := Ideal) S_ .f32 0x00000000#32))
            ((fun x v => Host.reduceAdd (F := Ideal) x v reducesTo_S2x32x32_S32x32_d0 h_S_) g1 (constant (F := Ideal) S_ .f32 0x00000000#32)))
          (constant (F := Ideal) S_ .f32 0x00000000#32)))
      (mulf (constant (F := Ideal) S_ .f32 0x40000000#32)
        ((fun x v => Host.reduceAdd (F := Ideal) x v reducesTo_S32x32_S_d0_1 h_S_)
          (mulf
            ((fun x v => Host.reduceAdd (F := Ideal) x v reducesTo_S2x32x32_S32x32_d0 h_S_) g2 (constant (F := Ideal) S_ .f32 0x00000000#32))
            ((fun x v => Host.reduceAdd (F := Ideal) x v reducesTo_S2x32x32_S32x32_d0 h_S_) g2 (constant (F := Ideal) S_ .f32 0x00000000#32)))
          (constant (F := Ideal) S_ .f32 0x00000000#32))))
    (constant (F := Ideal) S_ .f32 0x4C800000#32)

/-- The index the batch sum reads: batch entry `k` of the block entry `(c, c')`. -/
theorem lift_ix (hR : S2x32x32.Reduces [0] S32x32) (c c' : Fin 32) (k : Fin 2) :
    hR.lift (ix2 c c') k = ix3 k c c' := by
  funext a
  fin_cases a <;> exact Fin.ext rfl

/-- The sum over the batch axis, at real entries. -/
theorem batchSum_apply (g : Vec Ideal S2x32x32 .f32) (r : Fin 2 → Fin 32 → Fin 32 → ℝ)
    (h : ∀ b c c', g (ix3 b c c') = ((r b c c' : ℝ) : EReal)) (c c' : Fin 32) :
    Host.reduceAdd (F := Ideal) g (constant (F := Ideal) S_ .f32 0x00000000#32) reducesTo_S2x32x32_S32x32_d0 h_S_ (ix2 c c')
      = ((∑ b : Fin 2, r b c c' : ℝ) : EReal) := by
  have hR : S2x32x32.Reduces [0] S32x32 := by decide
  rw [hostReduceAdd_apply, Ideal.hostReduceAdd_single _ hR, constant_apply, Cert.Consts.ofBits_zero, zero_add,
    Cert.Spec.coe_sum]
  refine Finset.sum_congr rfl fun k _ => ?_
  rw [lift_ix hR c c' k]
  exact h k c c'

/-- The sum of the squares of all entries of a 32 × 32 array, at real entries. -/
theorem sqSum_apply (v : Vec Ideal S32x32 .f32) (s : Fin 32 → Fin 32 → ℝ)
    (h : ∀ c c', v (ix2 c c') = ((s c c' : ℝ) : EReal)) (j : S_.Idx) :
    Host.reduceAdd (F := Ideal) (mulf v v) (constant (F := Ideal) S_ .f32 0x00000000#32) reducesTo_S32x32_S_d0_1 h_S_ j
      = ((∑ c : Fin 32, ∑ c' : Fin 32, s c c' * s c c' : ℝ) : EReal) := by
  rw [hostReduceAdd_apply, Ideal.hostReduceAdd_total _ (fun b => b.elim0), constant_apply, Cert.Consts.ofBits_zero,
    zero_add, sum_idx2, Cert.Spec.coe_sum]
  refine Finset.sum_congr rfl fun c _ => ?_
  rw [Cert.Spec.coe_sum]
  refine Finset.sum_congr rfl fun c' _ => ?_
  rw [mulf_apply, h c c', EReal.coe_mul]

/-- The value of the last operations at real outputs. -/
theorem tail_apply (g0 g1 g2 : Vec Ideal S2x32x32 .f32) (ra rb rab : Fin 2 → Fin 32 → Fin 32 → ℝ)
    (h0 : ∀ b c c', g0 (ix3 b c c') = ((ra b c c' : ℝ) : EReal))
    (h1 : ∀ b c c', g1 (ix3 b c c') = ((rb b c c' : ℝ) : EReal))
    (h2 : ∀ b c c', g2 (ix3 b c c') = ((rab b c c' : ℝ) : EReal)) :
    tail g0 g1 g2 = fun _ =>
      ((((∑ c : Fin 32, ∑ c' : Fin 32, (∑ b : Fin 2, ra b c c') * (∑ b : Fin 2, ra b c c'))
        + (∑ c : Fin 32, ∑ c' : Fin 32, (∑ b : Fin 2, rb b c c') * (∑ b : Fin 2, rb b c c'))
        - 2 * (∑ c : Fin 32, ∑ c' : Fin 32, (∑ b : Fin 2, rab b c c') * (∑ b : Fin 2, rab b c c'))) / 67108864 : ℝ) : EReal) := by
  funext j
  unfold tail
  beta_reduce
  rw [hostDivf_apply, subf_apply, addf_apply, mulf_apply, constant_apply, constant_apply,
    Cert.Consts.ofBits_2, Cert.Consts.ofBits_2p26]
  rw [sqSum_apply _ _ (batchSum_apply g0 ra h0) j, sqSum_apply _ _ (batchSum_apply g1 rb h1) j,
    sqSum_apply _ _ (batchSum_apply g2 rab h2) j]
  rw [Ideal.div_coe (by norm_num : (67108864 : ℝ) ≠ 0), ← EReal.coe_add, ← EReal.coe_mul, ← EReal.coe_sub,
    ← EReal.coe_mul]
  congr 1
  ring

end Cert.KerTail

end
-- ==== Proof.KerRun.lean ====
/-
  The run of the whole program, with the host operations after the kernel call.

  Every fair execution terminates; in every final state the result buffer holds the program's last operations
  (`KerTail.tail`) applied to the three output arrays of the kernel call as the grid leaves them, and the two
  inputs are as launched.
-/
import proofs.«123074_j61263413510182_2_alg».proof.Proof.Gen.KernelIdeal.Frame
import proofs.«123074_j61263413510182_2_alg».proof.Proof.KerTail

set_option maxRecDepth 16384

noncomputable section

namespace Cert.KerRun

open Idealize.ShloMosaic Idealize.ShloMosaic.TcCoe Idealize.ShloMosaic.Tactic
open Idealize.SL Idealize.SL.Sem
open Idealize.ShloMosaic.Pipeline (Dat Cfg Window)
open Idealize.ShloMosaic.StableHlo
open Cert.KernelIdeal Cert.KernelIdeal.Gen

/-- The result buffer bypasses the kernel call: it is not scoped and is no window's array. -/
theorem v13_mem : main_v13 ∈ Pipeline.restRefs sig (cfgs 0).spec :=
  Pipeline.mem_restRefs_of main_v13 (by decide) (by decide)

set_option maxHeartbeats 1000000 in
/-- The operations after the kernel call, over any contents of the buffers: the result buffer ends with
    `tail` of the three output arrays. -/
theorem tail_after (W : Valuation τ sig (Elt Ideal)) :
    StableHlo.after (hostOps1 (F := Ideal)) W (Proc.devRef .tc main_v13)
      = Cert.KerTail.tail (W (Proc.devRef .tc main_v0_0)) (W (Proc.devRef .tc main_v0_1)) (W (Proc.devRef .tc main_v0_2)) := by
  after_results
  rfl

/-- What the operations after the kernel call leave in the result buffer: `tail` of the three output arrays as
    the grid leaves them. -/
theorem tail_v13 (m : (ℓ : Loc nD τ sig) → Buf (Elt Ideal) ℓ) (c : Dev nD) :
    Pipeline.afterTail₀ cfgs (dats m) 0 (V0 m) [hostOps1] c main_v13
      = Cert.KerTail.tail ((dats m 0 c).arrAt 3 cfg0.N) ((dats m 0 c).arrAt 4 cfg0.N) ((dats m 0 c).arrAt 5 cfg0.N) := by
  unfold Pipeline.afterTail₀
  show StableHlo.after hostOps1 _ (Proc.devRef .tc main_v13) = _
  refine (tail_after _).trans ?_
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  have e5 := Pipeline.withArrays_arr spec0 launch0.win.arr_inj c (V0 m c) (fun w => (dats m 0 c).arrAt w cfg0.N) 5
  exact congr (congr (congrArg Cert.KerTail.tail e3) e4) e5

/-- The run: termination, the result buffer, and the two inputs as launched. -/
theorem run_tail (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
          = Cert.KerTail.tail ((dats m 0 c).arrAt 3 cfg0.N) ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v13 v13_mem).trans (tail_v13 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KerRun

end
-- ==== Proof.KerCover.lean ====
/-
  From the blocks the kernel writes back to the arrays after the run. Each of the three output arrays is
  2 × 32 × 32 and is written back one batch row at a time, at the last grid point of the batch; when what that
  point leaves is row `b` of a function `G`, the array after the run is `G`.
-/
import proofs.«123074_j61263413510182_2_alg».proof.Proof.Gen.KernelIdeal.Frame
import Idealize.ShloMosaic.Lib.ValueIdx
import Idealize.ShloMosaic.Lib.Pipeline.Value

noncomputable section

namespace Cert.KerCover

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- A function of the three coordinates as contents of a 2 × 32 × 32 array. -/
def arrOf (G : Fin 2 → Fin 32 → Fin 32 → EReal) : S2x32x32.Idx → EReal :=
  fun i => G ⟨(i 0).val, (i 0).isLt⟩ ⟨(i 1).val, (i 1).isLt⟩ ⟨(i 2).val, (i 2).isLt⟩

theorem arrOf_ix3 (G : Fin 2 → Fin 32 → Fin 32 → EReal) (b : Fin 2) (c1 c2 : Fin 32) :
    arrOf G (ValueIdx.ix3 b c1 c2) = G b c1 c2 := rfl

/-! ### The first output window -/

/-- The block of each output window at point `t` is batch row `t / 16`. -/
theorem idx_facts3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- What a flushing point writes back is its block of `arrOf G`. -/
theorem flushed3_eq (c : Dev nD) (G : Fin 2 → Fin 32 → Fin 32 → EReal)
    (hlast : ∀ (t : Fin cfg0.N) (ht : t.val % 16 = 15) (c1 c2 : Fin 32),
      (outsAt0 m c t.val t.isLt).1 (ValueIdx.ix3 (0 : Fin 1) c1 c2)
        = G ⟨t.val / 16, by have := t.isLt; have hN : cfg0.N = 32 := N_0; omega⟩ c1 c2)
    (t : Fin cfg0.N) (hf : (cfg0.win 3).flush t = true) :
    (dats m 0 c).flushed 3 t = ((cfg0.win 3).blk t).view.read (Elt Ideal) (arrOf G) := by
  have ht : t.val % 16 = 15 := (flush0_3 t).mp hf
  have hN : cfg0.N = 32 := N_0
  have htl := t.isLt
  obtain ⟨e0, e1, e2⟩ := idx_facts3 t
  show (cfg0.win 3).cut (grid0.coords t) ((dats m 0 c).after 3 t) = _
  rw [after0_3]
  funext y
  have hy0 : (y 0).val < 1 := (y 0).isLt
  have hy1 : (y 1).val < 32 := (y 1).isLt
  have hy2 : (y 2).val < 32 := (y 2).isLt
  show (outsAt0 m c t.val t.isLt).1 ((cfg0.win 3).xinj (grid0.coords t) y) = arrOf G (((cfg0.win 3).blk t).view.emb y)
  have hx : (cfg0.win 3).xinj (grid0.coords t) y = (ValueIdx.ix3 (0 : Fin 1) ⟨(y 1).val, hy1⟩ ⟨(y 2).val, hy2⟩ : S1x32x32.Idx) := by
    funext a
    apply Fin.ext
    match a with
    | ⟨0, _⟩ => show (y 0).val = 0; omega
    | ⟨1, _⟩ => rfl
    | ⟨2, _⟩ => rfl
  have he : ((cfg0.win 3).blk t).view.emb y
      = (ValueIdx.ix3 (⟨t.val / 16, by omega⟩ : Fin 2) ⟨(y 1).val, hy1⟩ ⟨(y 2).val, hy2⟩ : S2x32x32.Idx) := by
    funext a
    apply Fin.ext
    match a with
    | ⟨0, _⟩ => show win0_3.index t 0 * 1 + 1 * (y 0).val = t.val / 16; omega
    | ⟨1, _⟩ => show win0_3.index t 1 * 32 + 1 * (y 1).val = (y 1).val; omega
    | ⟨2, _⟩ => show win0_3.index t 2 * 32 + 1 * (y 2).val = (y 2).val; omega
  rw [hx, he, arrOf_ix3]
  exact hlast t ht _ _

/-- Every index of the array is in the block of the last point of its batch row. -/
theorem cover3 (i : S2x32x32.Idx) :
    ∃ t : Fin cfg0.N, (cfg0.win 3).flush t = true ∧ i ∈ ((cfg0.win 3).blk t).view.set := by
  have hN : cfg0.N = 32 := N_0
  have h0 : (i 0).val < 2 := (i 0).isLt
  have h1 : (i 1).val < 32 := (i 1).isLt
  have h2 : (i 2).val < 32 := (i 2).isLt
  have hlt : 16 * (i 0).val + 15 < cfg0.N := by omega
  obtain ⟨e0, e1, e2⟩ := idx_facts3 ⟨16 * (i 0).val + 15, hlt⟩
  have e0' : win0_3.index ⟨16 * (i 0).val + 15, hlt⟩ 0 = (i 0).val := by
    rw [e0]; show (16 * (i 0).val + 15) / 16 = (i 0).val; omega
  refine ⟨⟨16 * (i 0).val + 15, hlt⟩, (flush0_3 _).mpr (by show (16 * (i 0).val + 15) % 16 = 15; omega), ?_⟩
  show i ∈ ((View.whole main_v0_0).slice (win0_3.rect ⟨16 * (i 0).val + 15, hlt⟩)).set
  rw [View.set_slice_whole, Rect.mem_set_unit]
  intro a
  match a with
  | ⟨0, _⟩ =>
    show win0_3.index ⟨16 * (i 0).val + 15, hlt⟩ 0 * 1 ≤ (i 0).val
      ∧ (i 0).val < win0_3.index ⟨16 * (i 0).val + 15, hlt⟩ 0 * 1 + 1
    omega
  | ⟨1, _⟩ =>
    show win0_3.index ⟨16 * (i 0).val + 15, hlt⟩ 1 * 32 ≤ (i 1).val
      ∧ (i 1).val < win0_3.index ⟨16 * (i 0).val + 15, hlt⟩ 1 * 32 + 32
    omega
  | ⟨2, _⟩ =>
    show win0_3.index ⟨16 * (i 0).val + 15, hlt⟩ 2 * 32 ≤ (i 2).val
      ∧ (i 2).val < win0_3.index ⟨16 * (i 0).val + 15, hlt⟩ 2 * 32 + 32
    omega

/-- The first output array after the run. -/
theorem arr3 (c : Dev nD) (G : Fin 2 → Fin 32 → Fin 32 → EReal)
    (hlast : ∀ (t : Fin cfg0.N) (ht : t.val % 16 = 15) (c1 c2 : Fin 32),
      (outsAt0 m c t.val t.isLt).1 (ValueIdx.ix3 (0 : Fin 1) c1 c2)
        = G ⟨t.val / 16, by have := t.isLt; have hN : cfg0.N = 32 := N_0; omega⟩ c1 c2)
    (b : Fin 2) (c1 c2 : Fin 32) :
    (dats m 0 c).arrAt 3 cfg0.N (ValueIdx.ix3 b c1 c2) = G b c1 c2 := by
  rw [(dats m 0 c).arrAt_eq_of_cover 3 (arrOf G) (flushed3_eq m c G hlast) cover3]
  rfl

/-! ### The second output window -/

/-- The block of each output window at point `t` is batch row `t / 16`. -/
theorem idx_facts4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- What a flushing point writes back is its block of `arrOf G`. -/
theorem flushed4_eq (c : Dev nD) (G : Fin 2 → Fin 32 → Fin 32 → EReal)
    (hlast : ∀ (t : Fin cfg0.N) (ht : t.val % 16 = 15) (c1 c2 : Fin 32),
      (outsAt0 m c t.val t.isLt).2.1 (ValueIdx.ix3 (0 : Fin 1) c1 c2)
        = G ⟨t.val / 16, by have := t.isLt; have hN : cfg0.N = 32 := N_0; omega⟩ c1 c2)
    (t : Fin cfg0.N) (hf : (cfg0.win 4).flush t = true) :
    (dats m 0 c).flushed 4 t = ((cfg0.win 4).blk t).view.read (Elt Ideal) (arrOf G) := by
  have ht : t.val % 16 = 15 := (flush0_4 t).mp hf
  have hN : cfg0.N = 32 := N_0
  have htl := t.isLt
  obtain ⟨e0, e1, e2⟩ := idx_facts4 t
  show (cfg0.win 4).cut (grid0.coords t) ((dats m 0 c).after 4 t) = _
  rw [after0_4]
  funext y
  have hy0 : (y 0).val < 1 := (y 0).isLt
  have hy1 : (y 1).val < 32 := (y 1).isLt
  have hy2 : (y 2).val < 32 := (y 2).isLt
  show (outsAt0 m c t.val t.isLt).2.1 ((cfg0.win 4).xinj (grid0.coords t) y) = arrOf G (((cfg0.win 4).blk t).view.emb y)
  have hx : (cfg0.win 4).xinj (grid0.coords t) y = (ValueIdx.ix3 (0 : Fin 1) ⟨(y 1).val, hy1⟩ ⟨(y 2).val, hy2⟩ : S1x32x32.Idx) := by
    funext a
    apply Fin.ext
    match a with
    | ⟨0, _⟩ => show (y 0).val = 0; omega
    | ⟨1, _⟩ => rfl
    | ⟨2, _⟩ => rfl
  have he : ((cfg0.win 4).blk t).view.emb y
      = (ValueIdx.ix3 (⟨t.val / 16, by omega⟩ : Fin 2) ⟨(y 1).val, hy1⟩ ⟨(y 2).val, hy2⟩ : S2x32x32.Idx) := by
    funext a
    apply Fin.ext
    match a with
    | ⟨0, _⟩ => show win0_4.index t 0 * 1 + 1 * (y 0).val = t.val / 16; omega
    | ⟨1, _⟩ => show win0_4.index t 1 * 32 + 1 * (y 1).val = (y 1).val; omega
    | ⟨2, _⟩ => show win0_4.index t 2 * 32 + 1 * (y 2).val = (y 2).val; omega
  rw [hx, he, arrOf_ix3]
  exact hlast t ht _ _

/-- Every index of the array is in the block of the last point of its batch row. -/
theorem cover4 (i : S2x32x32.Idx) :
    ∃ t : Fin cfg0.N, (cfg0.win 4).flush t = true ∧ i ∈ ((cfg0.win 4).blk t).view.set := by
  have hN : cfg0.N = 32 := N_0
  have h0 : (i 0).val < 2 := (i 0).isLt
  have h1 : (i 1).val < 32 := (i 1).isLt
  have h2 : (i 2).val < 32 := (i 2).isLt
  have hlt : 16 * (i 0).val + 15 < cfg0.N := by omega
  obtain ⟨e0, e1, e2⟩ := idx_facts4 ⟨16 * (i 0).val + 15, hlt⟩
  have e0' : win0_4.index ⟨16 * (i 0).val + 15, hlt⟩ 0 = (i 0).val := by
    rw [e0]; show (16 * (i 0).val + 15) / 16 = (i 0).val; omega
  refine ⟨⟨16 * (i 0).val + 15, hlt⟩, (flush0_4 _).mpr (by show (16 * (i 0).val + 15) % 16 = 15; omega), ?_⟩
  show i ∈ ((View.whole main_v0_1).slice (win0_4.rect ⟨16 * (i 0).val + 15, hlt⟩)).set
  rw [View.set_slice_whole, Rect.mem_set_unit]
  intro a
  match a with
  | ⟨0, _⟩ =>
    show win0_4.index ⟨16 * (i 0).val + 15, hlt⟩ 0 * 1 ≤ (i 0).val
      ∧ (i 0).val < win0_4.index ⟨16 * (i 0).val + 15, hlt⟩ 0 * 1 + 1
    omega
  | ⟨1, _⟩ =>
    show win0_4.index ⟨16 * (i 0).val + 15, hlt⟩ 1 * 32 ≤ (i 1).val
      ∧ (i 1).val < win0_4.index ⟨16 * (i 0).val + 15, hlt⟩ 1 * 32 + 32
    omega
  | ⟨2, _⟩ =>
    show win0_4.index ⟨16 * (i 0).val + 15, hlt⟩ 2 * 32 ≤ (i 2).val
      ∧ (i 2).val < win0_4.index ⟨16 * (i 0).val + 15, hlt⟩ 2 * 32 + 32
    omega

/-- The second output array after the run. -/
theorem arr4 (c : Dev nD) (G : Fin 2 → Fin 32 → Fin 32 → EReal)
    (hlast : ∀ (t : Fin cfg0.N) (ht : t.val % 16 = 15) (c1 c2 : Fin 32),
      (outsAt0 m c t.val t.isLt).2.1 (ValueIdx.ix3 (0 : Fin 1) c1 c2)
        = G ⟨t.val / 16, by have := t.isLt; have hN : cfg0.N = 32 := N_0; omega⟩ c1 c2)
    (b : Fin 2) (c1 c2 : Fin 32) :
    (dats m 0 c).arrAt 4 cfg0.N (ValueIdx.ix3 b c1 c2) = G b c1 c2 := by
  rw [(dats m 0 c).arrAt_eq_of_cover 4 (arrOf G) (flushed4_eq m c G hlast) cover4]
  rfl

/-! ### The third output window -/

/-- The block of each output window at point `t` is batch row `t / 16`. -/
theorem idx_facts5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

/-- What a flushing point writes back is its block of `arrOf G`. -/
theorem flushed5_eq (c : Dev nD) (G : Fin 2 → Fin 32 → Fin 32 → EReal)
    (hlast : ∀ (t : Fin cfg0.N) (ht : t.val % 16 = 15) (c1 c2 : Fin 32),
      (outsAt0 m c t.val t.isLt).2.2.1 (ValueIdx.ix3 (0 : Fin 1) c1 c2)
        = G ⟨t.val / 16, by have := t.isLt; have hN : cfg0.N = 32 := N_0; omega⟩ c1 c2)
    (t : Fin cfg0.N) (hf : (cfg0.win 5).flush t = true) :
    (dats m 0 c).flushed 5 t = ((cfg0.win 5).blk t).view.read (Elt Ideal) (arrOf G) := by
  have ht : t.val % 16 = 15 := (flush0_5 t).mp hf
  have hN : cfg0.N = 32 := N_0
  have htl := t.isLt
  obtain ⟨e0, e1, e2⟩ := idx_facts5 t
  show (cfg0.win 5).cut (grid0.coords t) ((dats m 0 c).after 5 t) = _
  rw [after0_5]
  funext y
  have hy0 : (y 0).val < 1 := (y 0).isLt
  have hy1 : (y 1).val < 32 := (y 1).isLt
  have hy2 : (y 2).val < 32 := (y 2).isLt
  show (outsAt0 m c t.val t.isLt).2.2.1 ((cfg0.win 5).xinj (grid0.coords t) y) = arrOf G (((cfg0.win 5).blk t).view.emb y)
  have hx : (cfg0.win 5).xinj (grid0.coords t) y = (ValueIdx.ix3 (0 : Fin 1) ⟨(y 1).val, hy1⟩ ⟨(y 2).val, hy2⟩ : S1x32x32.Idx) := by
    funext a
    apply Fin.ext
    match a with
    | ⟨0, _⟩ => show (y 0).val = 0; omega
    | ⟨1, _⟩ => rfl
    | ⟨2, _⟩ => rfl
  have he : ((cfg0.win 5).blk t).view.emb y
      = (ValueIdx.ix3 (⟨t.val / 16, by omega⟩ : Fin 2) ⟨(y 1).val, hy1⟩ ⟨(y 2).val, hy2⟩ : S2x32x32.Idx) := by
    funext a
    apply Fin.ext
    match a with
    | ⟨0, _⟩ => show win0_5.index t 0 * 1 + 1 * (y 0).val = t.val / 16; omega
    | ⟨1, _⟩ => show win0_5.index t 1 * 32 + 1 * (y 1).val = (y 1).val; omega
    | ⟨2, _⟩ => show win0_5.index t 2 * 32 + 1 * (y 2).val = (y 2).val; omega
  rw [hx, he, arrOf_ix3]
  exact hlast t ht _ _

/-- Every index of the array is in the block of the last point of its batch row. -/
theorem cover5 (i : S2x32x32.Idx) :
    ∃ t : Fin cfg0.N, (cfg0.win 5).flush t = true ∧ i ∈ ((cfg0.win 5).blk t).view.set := by
  have hN : cfg0.N = 32 := N_0
  have h0 : (i 0).val < 2 := (i 0).isLt
  have h1 : (i 1).val < 32 := (i 1).isLt
  have h2 : (i 2).val < 32 := (i 2).isLt
  have hlt : 16 * (i 0).val + 15 < cfg0.N := by omega
  obtain ⟨e0, e1, e2⟩ := idx_facts5 ⟨16 * (i 0).val + 15, hlt⟩
  have e0' : win0_5.index ⟨16 * (i 0).val + 15, hlt⟩ 0 = (i 0).val := by
    rw [e0]; show (16 * (i 0).val + 15) / 16 = (i 0).val; omega
  refine ⟨⟨16 * (i 0).val + 15, hlt⟩, (flush0_5 _).mpr (by show (16 * (i 0).val + 15) % 16 = 15; omega), ?_⟩
  show i ∈ ((View.whole main_v0_2).slice (win0_5.rect ⟨16 * (i 0).val + 15, hlt⟩)).set
  rw [View.set_slice_whole, Rect.mem_set_unit]
  intro a
  match a with
  | ⟨0, _⟩ =>
    show win0_5.index ⟨16 * (i 0).val + 15, hlt⟩ 0 * 1 ≤ (i 0).val
      ∧ (i 0).val < win0_5.index ⟨16 * (i 0).val + 15, hlt⟩ 0 * 1 + 1
    omega
  | ⟨1, _⟩ =>
    show win0_5.index ⟨16 * (i 0).val + 15, hlt⟩ 1 * 32 ≤ (i 1).val
      ∧ (i 1).val < win0_5.index ⟨16 * (i 0).val + 15, hlt⟩ 1 * 32 + 32
    omega
  | ⟨2, _⟩ =>
    show win0_5.index ⟨16 * (i 0).val + 15, hlt⟩ 2 * 32 ≤ (i 2).val
      ∧ (i 2).val < win0_5.index ⟨16 * (i 0).val + 15, hlt⟩ 2 * 32 + 32
    omega

/-- The third output array after the run. -/
theorem arr5 (c : Dev nD) (G : Fin 2 → Fin 32 → Fin 32 → EReal)
    (hlast : ∀ (t : Fin cfg0.N) (ht : t.val % 16 = 15) (c1 c2 : Fin 32),
      (outsAt0 m c t.val t.isLt).2.2.1 (ValueIdx.ix3 (0 : Fin 1) c1 c2)
        = G ⟨t.val / 16, by have := t.isLt; have hN : cfg0.N = 32 := N_0; omega⟩ c1 c2)
    (b : Fin 2) (c1 c2 : Fin 32) :
    (dats m 0 c).arrAt 5 cfg0.N (ValueIdx.ix3 b c1 c2) = G b c1 c2 := by
  rw [(dats m 0 c).arrAt_eq_of_cover 5 (arrOf G) (flushed5_eq m c G hlast) cover5]
  rfl

end Cert.KerCover

end
-- ==== Proof.KerValue.lean ====
/-
  The kernel's result over the reals: the three output arrays hold the per-batch sums, and the host lines after the
  call turn them into (‖AᵀA‖² + ‖BᵀB‖² − 2 ‖AᵀB‖²) / N², which is `kerLoss` of the two inputs.
-/
import proofs.«123074_j61263413510182_2_alg».proof.Proof.KerAccum
import proofs.«123074_j61263413510182_2_alg».proof.Proof.KerRun
import proofs.«123074_j61263413510182_2_alg».proof.Proof.KerCover
import proofs.«123074_j61263413510182_2_alg».proof.Proof.KerTail
import Idealize.ShloMosaic.Lib.Pipeline.Value
import Idealize.ShloMosaic.Lib.ValueIdx
import Idealize.ShloMosaic.PureOps.Ideal.Laws

set_option maxRecDepth 16384

noncomputable section

namespace Cert.KerValue

open Idealize.ShloMosaic Idealize.ShloMosaic.TcCoe Idealize.ShloMosaic.Tactic Idealize.SL.Sem
open Cert.KernelIdeal Cert.KernelIdeal.Gen

open Idealize.ShloMosaic.ValueIdx Cert.KerMath Cert.KerAccum Cert.Spec

variable (m : (ℓ : Loc nD τ sig) → Buf (Elt Ideal) ℓ)

/-! ## The kernel's result

Each output array holds, per batch, the sum over the batch's sixteen depth slabs of the slab's channel-by-channel
product; the host lines after the call sum the two batches, square, add up, combine and divide: `kerLoss`. -/

theorem tail_val (c : Dev nD)
    (hX0 : Finite (m ((c : Thread nD τ).loc main_arg0))) (hX1 : Finite (m ((c : Thread nD τ).loc main_arg1))) :
    Cert.KerTail.tail ((dats m 0 c).arrAt 3 cfg0.N) ((dats m 0 c).arrAt 4 cfg0.N) ((dats m 0 c).arrAt 5 cfg0.N)
      = fun _ => ((kerLoss (toArr (m ((c : Thread nD τ).loc main_arg0))) (toArr (m ((c : Thread nD τ).loc main_arg1))) : ℝ) : EReal) := by
  rw [Cert.KerTail.tail_apply _ _ _
    (fun b c1 c2 => ∑ sd : Fin 16, term (toArr (m ((c : Thread nD τ).loc main_arg0))) (toArr (m ((c : Thread nD τ).loc main_arg0))) b sd c1 c2)
    (fun b c1 c2 => ∑ sd : Fin 16, term (toArr (m ((c : Thread nD τ).loc main_arg1))) (toArr (m ((c : Thread nD τ).loc main_arg1))) b sd c1 c2)
    (fun b c1 c2 => ∑ sd : Fin 16, term (toArr (m ((c : Thread nD τ).loc main_arg0))) (toArr (m ((c : Thread nD τ).loc main_arg1))) b sd c1 c2)
    (fun b c1 c2 => Cert.KerCover.arr3 m c (fun b c1 c2 => ((∑ sd : Fin 16, term (toArr (m ((c : Thread nD τ).loc main_arg0))) (toArr (m ((c : Thread nD τ).loc main_arg0))) b sd c1 c2 : ℝ) : EReal))
      (fun t ht c1 c2 => (out_last m c hX0 hX1 t ht c1 c2).1) b c1 c2)
    (fun b c1 c2 => Cert.KerCover.arr4 m c (fun b c1 c2 => ((∑ sd : Fin 16, term (toArr (m ((c : Thread nD τ).loc main_arg1))) (toArr (m ((c : Thread nD τ).loc main_arg1))) b sd c1 c2 : ℝ) : EReal))
      (fun t ht c1 c2 => (out_last m c hX0 hX1 t ht c1 c2).2.1) b c1 c2)
    (fun b c1 c2 => Cert.KerCover.arr5 m c (fun b c1 c2 => ((∑ sd : Fin 16, term (toArr (m ((c : Thread nD τ).loc main_arg0))) (toArr (m ((c : Thread nD τ).loc main_arg1))) b sd c1 c2 : ℝ) : EReal))
      (fun t ht c1 c2 => (out_last m c hX0 hX1 t ht c1 c2).2.2) b c1 c2),
    kerLoss_eq]

/-- Every weakly fair execution of the idealized kernel from finite inputs ends with its result at `kerLoss` of the
    two inputs, the inputs unchanged. -/
theorem ker_run (ρ : Dev nD → PrngReg)
    (hfin : ∀ c : Dev nD, Finite (m ((c.tc : Thread nD τ).loc main_arg0)) ∧ Finite (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v13)
          = (fun _ => ((kerLoss (toArr (m ((c.tc : Thread nD τ).loc main_arg0))) (toArr (m ((c.tc : Thread nD τ).loc main_arg1))) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun r h c => ⟨(h c).1.trans (tail_val m c (hfin c).1 (hfin c).2), (h c).2.1, (h c).2.2⟩)
    (Cert.KerRun.run_tail m ρ)

end Cert.KerValue
end
-- ==== Proof.lean ====
/-
  The two programs compute one number. Both average the inputs over 4 × 4 × 4 boxes, view each of the
  2 · 16³ positions as a vector over the 32 channels, and divide it by the larger of its Euclidean norm and a
  fixed positive bound; call the resulting position-by-channel matrices A and B. The reference returns the mean of
  the squared entries of A Aᵀ − B Bᵀ; the kernel accumulates the three channel-by-channel matrices AᵀA, BᵀB and AᵀB
  over the grid (sixteen depth slabs per batch, summed in a carried accumulator, the two batches summed afterwards)
  and returns (‖AᵀA‖² + ‖BᵀB‖² − 2 ‖AᵀB‖²) / N², which is the same number: the trace of a product is invariant under
  cyclic permutation. The kernel pools by a mean over four depth slices followed by two products with the pooling
  matrix (entries 1/4 on the 4-to-1 blocks), which is the box mean. Everything is a real number because the inputs
  are finite and every divisor is bounded below by the positive bound.
-/
import proofs.«123074_j61263413510182_2_alg».proof.Defs
import proofs.«123074_j61263413510182_2_alg».proof.Proof.Gen.Kernel
import proofs.«123074_j61263413510182_2_alg».proof.Proof.Gen.Kernel.Skeleton
import proofs.«123074_j61263413510182_2_alg».proof.Proof.Gen.Kernel.Launch
import proofs.«123074_j61263413510182_2_alg».proof.Proof.Gen.Kernel.Points
import proofs.«123074_j61263413510182_2_alg».proof.Proof.Gen.Kernel.Frame
import proofs.«123074_j61263413510182_2_alg».proof.Proof.Gen.KernelIdeal
import proofs.«123074_j61263413510182_2_alg».proof.Proof.Gen.KernelIdeal.Skeleton
import proofs.«123074_j61263413510182_2_alg».proof.Proof.Gen.KernelIdeal.Launch
import proofs.«123074_j61263413510182_2_alg».proof.Proof.Gen.KernelIdeal.Points
import proofs.«123074_j61263413510182_2_alg».proof.Proof.Gen.KernelIdeal.Frame
import proofs.«123074_j61263413510182_2_alg».proof.Proof.Gen.ReferenceIdeal
import proofs.«123074_j61263413510182_2_alg».proof.Proof.Gen.Pre_finite_inputs
import proofs.«123074_j61263413510182_2_alg».proof.Proof.Gen.ReferenceIdeal.Run
import proofs.«123074_j61263413510182_2_alg».proof.Proof.Gen.ReferenceIdeal.Read
import proofs.«123074_j61263413510182_2_alg».proof.Proof.RefValue
import proofs.«123074_j61263413510182_2_alg».proof.Proof.GramLaw
import proofs.«123074_j61263413510182_2_alg».proof.Proof.FiniteIn
import proofs.«123074_j61263413510182_2_alg».proof.Proof.KerValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs the kernel's result is `kerLoss` and the reference's is `refLoss` of the same two real arrays,
    and the two are equal. -/
theorem algebraic : Cert.algebraic_KernelIdeal_ReferenceIdeal := by
  intro m ρ m' ρ' hpre hagree
  have hfin : ∀ c : Dev Cert.KernelIdeal.nD,
      Cert.Spec.Finite (m ((c.tc : Thread Cert.KernelIdeal.nD Cert.KernelIdeal.τ).loc Cert.KernelIdeal.main_arg0))
      ∧ Cert.Spec.Finite (m ((c.tc : Thread Cert.KernelIdeal.nD Cert.KernelIdeal.τ).loc Cert.KernelIdeal.main_arg1)) :=
    fun c => Cert.FiniteIn.finite_of_fn _ _ (hpre c)
  refine ⟨_, Cert.KerValue.ker_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2,
    Cert.RefValue.ref_value _ _ (hfin c).1 (hfin c).2, Cert.Spec.ref_eq_ker]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
